-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S_ : Shape := ⟨0, ![]⟩
abbrev S512x1 : Shape := ⟨2, ![512, 1]⟩
abbrev S1x1024 : Shape := ⟨2, ![1, 1024]⟩
abbrev S1024x128 : Shape := ⟨2, ![1024, 128]⟩
abbrev S512x128 : Shape := ⟨2, ![512, 128]⟩
abbrev S512x1024 : Shape := ⟨2, ![512, 1024]⟩
abbrev S512 : Shape := ⟨1, ![512]⟩

abbrev nBuf : Space → Nat
  | .hbm => 38
  | .vmem => 26
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x128, .bf16⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x128, .f32⟩
  | .hbm, ⟨11, _⟩ => ⟨S8192x1, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x128, .bf16⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8192x1, .i1⟩
  | .hbm, ⟨33, _⟩ => ⟨S8192x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S512x1, .i32⟩
  | .local _ .vmem, ⟨1, _⟩ => ⟨S512x1, .i32⟩
  | .local _ .vmem, ⟨2, _⟩ => ⟨S1x1024, .i32⟩
  | .local _ .vmem, ⟨3, _⟩ => ⟨S1x1024, .i32⟩
  | .local _ .vmem, ⟨4, _⟩ => ⟨S1024x128, .bf16⟩
  | .local _ .vmem, ⟨5, _⟩ => ⟨S1024x128, .bf16⟩
  | .local _ .vmem, ⟨6, _⟩ => ⟨S512x128, .f32⟩
  | .local _ .vmem, ⟨7, _⟩ => ⟨S512x128, .f32⟩
  | .local _ .vmem, ⟨8, _⟩ => ⟨S512x1, .f32⟩
  | .local _ .vmem, ⟨9, _⟩ => ⟨S512x1, .f32⟩
  | .local _ .vmem, ⟨10, _⟩ => ⟨S512x1, .i32⟩
  | .local _ .vmem, ⟨11, _⟩ => ⟨S512x1, .i32⟩
  | .local _ .vmem, ⟨12, _⟩ => ⟨S1x1024, .i32⟩
  | .local _ .vmem, ⟨13, _⟩ => ⟨S1x1024, .i32⟩
  | .local _ .vmem, ⟨14, _⟩ => ⟨S512x128, .bf16⟩
  | .local _ .vmem, ⟨15, _⟩ => ⟨S512x128, .bf16⟩
  | .local _ .vmem, ⟨16, _⟩ => ⟨S1024x128, .bf16⟩
  | .local _ .vmem, ⟨17, _⟩ => ⟨S1024x128, .bf16⟩
  | .local _ .vmem, ⟨18, _⟩ => ⟨S512x1, .f32⟩
  | .local _ .vmem, ⟨19, _⟩ => ⟨S512x1, .f32⟩
  | .local _ .vmem, ⟨20, _⟩ => ⟨S1x1024, .f32⟩
  | .local _ .vmem, ⟨21, _⟩ => ⟨S1x1024, .f32⟩
  | .local _ .vmem, ⟨22, _⟩ => ⟨S512x1, .f32⟩
  | .local _ .vmem, ⟨23, _⟩ => ⟨S512x1, .f32⟩
  | .local _ .vmem, ⟨24, _⟩ => ⟨S512x1, .f32⟩
  | .local _ .vmem, ⟨25, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S8192_S8192x1 : S8192.ShapeCasts S8192x1
  shapeCasts_S8192_S1x8192 : S8192.ShapeCasts S1x8192
  bitsLt_bf16_f32 : FTy.bits .bf16 < FTy.bits .f32
  reducesTo_S8192x128_S8192_d1 : S8192x128.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  inb_S512x128_S512x128_0_0 : ∀ a, (![0, 0] : Fin 2 → Nat) a + S512x128.size a ≤ S512x128.size a
  h_S512x128 : 0 < S512x128.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  natLt_1_32 : 1 < 32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S512x128_S512x128 : S512x128.ShapeCasts S512x128
  reduces_S512x1024_S512 : S512x1024.Reduces [1] S512
  shapeCasts_S512_S512x1 : S512.ShapeCasts S512x1
  bcast_S8192x1_S8192x128_0_1 : S8192x1.BroadcastsInDim S8192x128 (![0, 1] : Fin 2 → Fin S8192x128.rank)
  bcast_S_S8192x1 : S_.BroadcastsInDim S8192x1 (![] : Fin 0 → Fin S8192x1.rank)
  reducesTo_S8192x1_S_d0_1 : S8192x1.ReducesTo [0, 1] S_
  dot_S512x1024_S1024x128_S512x128_1_0_0_1_n_n_wf : DotDims.WF S512x1024 S1024x128 S512x128 [1] [0] [0] [1] [] []
  dot_S512x128_S1024x128_S512x1024_1_1_0_0_n_n_wf : DotDims.WF S512x128 S1024x128 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .i32 = 32 ∨ (Rect.block (s := S8192x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .i32 = 32 ∨ (Rect.block (s := S1x8192) S1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S8192x128.size a
  hwx0_3 : ∀ i : grid0.Coords, EltTy.bits .f32 = 32 ∨ (Rect.block (s := S8192x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S8192x1.size a
  hwx1_0 : ∀ i : grid1.Coords, EltTy.bits .i32 = 32 ∨ (Rect.block (s := S8192x1) S512x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .i32 = 32 ∨ (Rect.block (s := S1x8192) S1x1024.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S8192x128.size a
  hwx1_2 : ∀ i : grid1.Coords, EltTy.bits .bf16 = 32 ∨ (Rect.block (s := S8192x128) S512x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .bf16 = 32 ∨ (Rect.block (s := S8192x128) S1024x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .f32 = 32 ∨ (Rect.block (s := S8192x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x8192.size a
  hwx1_5 : ∀ i : grid1.Coords, EltTy.bits .f32 = 32 ∨ (Rect.block (s := S1x8192) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S8192x1.size a
  hwx1_6 : ∀ i : grid1.Coords, EltTy.bits .f32 = 32 ∨ (Rect.block (s := S8192x1) S512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S8192x1.size a
  hwx1_7 : ∀ i : grid1.Coords, EltTy.bits .f32 = 32 ∨ (Rect.block (s := S8192x1) S512x1.size (cc1_transform_7 i) (hinb1_7 i)).WholeWords (EltTy.packing .f32)

variable [Facts₀]

def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14_0) S512x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v14_1) S512x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S128x8192 : Shape := ⟨2, ![128, 8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x8192, .i32⟩
  | .hbm, ⟨5, _⟩ => ⟨S8192x8192, .i32⟩
  | .hbm, ⟨6, _⟩ => ⟨S8192x8192, .i1⟩
  | .hbm, ⟨7, _⟩ => ⟨S8192x8192, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192, .f32⟩
  | .hbm, ⟨17, _⟩ => ⟨S8192x128, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S128x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8192, .i1⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_call2_cst : Ref sig .tc := ⟨.hbm, 47, rfl⟩
abbrev main_call2_v0 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_cst_11 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  h_S_ : 0 < S_.numel
  bcast_S8192x1_S8192x128_0_1 : S8192x1.BroadcastsInDim S8192x128 (![0, 1] : Fin 2 → Fin S8192x128.rank)
  reducesTo_S8192x128_S8192_d1 : S8192x128.ReducesTo [1] S8192
  transposes_S8192x128_S128x8192_1_0 : S8192x128.Transposes [1, 0] S128x8192
  bcast_S_S8192x8192 : S_.BroadcastsInDim S8192x8192 (![] : Fin 0 → Fin S8192x8192.rank)
  bcast_S_S8192 : S_.BroadcastsInDim S8192 (![] : Fin 0 → Fin S8192.rank)
  reducesTo_S8192_S_d0 : S8192.ReducesTo [0] S_
  dot_S8192x8192_S8192x128_S8192x128_1_0_0_1_n_n_wf : DotDims.WF S8192x8192 S8192x128 S8192x128 [1] [0] [0] [1] [] []
  dot_S8192x128_S128x8192_S8192x8192_1_0_0_1_n_n_wf : DotDims.WF S8192x128 S128x8192 S8192x8192 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  The mathematics both programs compute, written once over coordinates: the hard-mined center loss of `n = 8192`
  samples `x : [8192, 128]` with identities `t : [8192]`, on the extended reals.

  For samples `i` and `j`, `ind i j` is 1 when they share an identity and 0 otherwise. The center of sample `i` is
  the mean of the samples of its identity, `ctr i d = (∑ⱼ ind i j · x j d) / (∑ⱼ ind i j)`. The squared distance from
  center `i` to sample `j` is taken by the Gram expansion, `dist i j = (‖ctr i‖² + ‖x j‖²) − 2 · ⟨ctr i, x j⟩`.
  `far i` is the largest distance from center `i` to a sample of its own identity (a maximum from −∞), `near i`
  the smallest distance to a sample of another identity (a minimum from +∞). The two results are the mean over `i`
  of the hinge `max (far i − near i + margin) 0` and the fraction of samples with `near i > far i`.

  Every float literal stays the word both programs print; nothing here needs a literal's value.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Mine

/-- The samples' shape, `[8192, 128]`, and the identities', `[8192]`. -/
abbrev SX : Shape := ⟨2, ![8192, 128]⟩
abbrev ST : Shape := ⟨1, ![8192]⟩

/-- −∞ and +∞ as the programs spell them. -/
abbrev negInf : EReal := Ideal.ofBits .f32 0xFF800000#32
abbrev posInf : EReal := Ideal.ofBits .f32 0x7F800000#32
/-- The factor 2 of the Gram expansion, the margin 0.3 (as its binary word), and the count 8192. -/
abbrev two : EReal := Ideal.ofBits .f32 0x40000000#32
abbrev margin : EReal := Ideal.ofBits .f32 0x3E99999A#32
abbrev count : EReal := Ideal.ofBits .f32 0x46000000#32

variable (x : SX.Idx → EReal) (t : ST.Idx → BitVec 32)

/-- Samples `i` and `j` share an identity: the comparison's one-bit word. -/
def bit (i j : Fin 8192) : BitVec 1 := IntOp.cmpi .eq (t (ix1 i)) (t (ix1 j))

/-- … and as a number, 1 or 0. -/
def ind (i j : Fin 8192) : EReal := FloatOps.uitofp (F := Ideal) .f32 (bit t i j)

/-- How many samples share sample `i`'s identity. -/
def cnt (i : Fin 8192) : EReal := ∑ j : Fin 8192, ind t i j

/-- The sum of the samples of sample `i`'s identity, coordinate `d`. -/
def cnum (i : Fin 8192) (d : Fin 128) : EReal := ∑ j : Fin 8192, ind t i j * x (ix2 j d)

/-- The center of sample `i`'s identity. -/
def ctr (i : Fin 8192) (d : Fin 128) : EReal := Ideal.div (cnum x t i d) (cnt t i)

/-- The squared norms of center `i` and of sample `j`. -/
def c2 (i : Fin 8192) : EReal := ∑ d : Fin 128, ctr x t i d * ctr x t i d
def x2 (j : Fin 8192) : EReal := ∑ d : Fin 128, x (ix2 j d) * x (ix2 j d)

/-- The inner product of center `i` with sample `j`. -/
def cross (i j : Fin 8192) : EReal := ∑ d : Fin 128, ctr x t i d * x (ix2 j d)

/-- The squared distance from center `i` to sample `j`, by the Gram expansion. -/
def dist (i j : Fin 8192) : EReal := (c2 x t i + x2 x j) - two * cross x t i j

/-- The farthest sample of center `i`'s own identity, and the nearest sample of another. -/
def far (i : Fin 8192) : EReal :=
  (Finset.univ : Finset (Fin 8192)).fold max negInf fun j => Scalar.select (bit t i j) (dist x t i j) negInf
def near (i : Fin 8192) : EReal :=
  (Finset.univ : Finset (Fin 8192)).fold min posInf fun j => Scalar.select (bit t i j) posInf (dist x t i j)

/-- The hinge of sample `i`, and whether its nearest stranger is farther than its farthest kin. -/
def hinge (i : Fin 8192) : EReal := max (far x t i - near x t i + margin) 0
def won (i : Fin 8192) : EReal := FloatOps.uitofp (F := Ideal) .f32 (FloatOps.cmpf (F := Ideal) (φ := .f32) .ogt (near x t i) (far x t i))

/-- The two results: the mean hinge and the fraction won. -/
def loss : EReal := Ideal.div (∑ i : Fin 8192, hinge x t i) count
def prec : EReal := Ideal.div (∑ i : Fin 8192, won x t i) count

end Cert.Mine

/-! ## What each of the two kernel launches leaves, as a function of its own operand arrays

  The first launch receives the identities twice, as a column `[8192, 1]` and as a row `[1, 8192]`, and the samples;
  it leaves the per-identity sums and counts. The second receives the same column and row, the centers, the samples,
  the centers' squared norms as a column and the samples' as a row; it leaves `far` and `near` as columns. -/

namespace Cert.Mine

/-- A column `[8192, 1]` and a row `[1, 8192]`. -/
abbrev SC : Shape := ⟨2, ![8192, 1]⟩
abbrev SR : Shape := ⟨2, ![1, 8192]⟩

variable (tcol : SC.Idx → BitVec 32) (trow : SR.Idx → BitVec 32)

/-- Row `i` of the column and column `j` of the row hold the same identity: the one-bit word, and the number. -/
def bitK (i j : Fin 8192) : BitVec 1 := IntOp.cmpi .eq (tcol (ix2 i (0 : Fin 1))) (trow (ix2 (0 : Fin 1) j))
def indK (i j : Fin 8192) : EReal := FloatOps.uitofp (F := Ideal) .f32 (bitK tcol trow i j)

/-- The first launch's two results: the masked sums `[8192, 128]` and the counts `[8192, 1]`. -/
def cnumK (xb : SX.Idx → EReal) : SX.Idx → EReal := fun y => ∑ j : Fin 8192, indK tcol trow (y 0) j * xb (ix2 j (y 1))
def cntK : SC.Idx → EReal := fun y => ∑ j : Fin 8192, indK tcol trow (y 0) j

/-- The distance the second launch forms from its operands. -/
def distK (cb xb : SX.Idx → EReal) (c2col : SC.Idx → EReal) (x2row : SR.Idx → EReal) (i j : Fin 8192) : EReal :=
  (c2col (ix2 i (0 : Fin 1)) + x2row (ix2 (0 : Fin 1) j)) - two * ∑ d : Fin 128, cb (ix2 i d) * xb (ix2 j d)

/-- The second launch's two results, columns `[8192, 1]`. -/
def farK (cb xb : SX.Idx → EReal) (c2col : SC.Idx → EReal) (x2row : SR.Idx → EReal) : SC.Idx → EReal := fun y =>
  (Finset.univ : Finset (Fin 8192)).fold max negInf fun j =>
    Scalar.select (bitK tcol trow (y 0) j) (distK cb xb c2col x2row (y 0) j) negInf
def nearK (cb xb : SX.Idx → EReal) (c2col : SC.Idx → EReal) (x2row : SR.Idx → EReal) : SC.Idx → EReal := fun y =>
  (Finset.univ : Finset (Fin 8192)).fold min posInf fun j =>
    Scalar.select (bitK tcol trow (y 0) j) posInf (distK cb xb c2col x2row (y 0) j)

end Cert.Mine

end
-- ==== Proof.RefSide.lean ====
/-
  The reference program read at coordinates: each named intermediate of the reference, read at an index, is the
  corresponding quantity of the specification (the mask bit, the indicator, the counts, the masked sums, the centers,
  the squared norms, the inner products, the distances).
-/
import proofs.«104321_j75900662055339_1_alg».proof.Proof.Gen.ReferenceIdeal.Read
import proofs.«104321_j75900662055339_1_alg».proof.Proof.Spec

noncomputable section

open scoped BigOperators
open Idealize.ShloMosaic Idealize.ShloMosaic.ValueIdx Cert.ReferenceIdeal Cert.ReferenceIdeal.Gen Cert.ReferenceIdeal.Read Cert.Mine

namespace Cert.ReferenceIdeal.RefValue

variable (x : (⟨S8192x128, .f32⟩ : BufTy).Contents (Elt Ideal)) (t : (⟨S8192, .i32⟩ : BufTy).Contents (Elt Ideal))

/-- The mask at (i, j): whether samples i and j share an identity. -/
theorem v4_at (y : S8192x8192.Idx) : val_main_v4 (F := Ideal) t y = bit t (y 0) (y 1) := by
  rw [val_main_v4_apply, val_main_v2_apply, val_main_v3_apply, val_main_v0_apply, val_main_v1_apply]
  have e0 : idx_main_v0 (idx_main_v2 y) = ix1 (y 0) := funext fun a => by match a with | ⟨0, _⟩ => rfl
  have e1 : idx_main_v1 (idx_main_v3 y) = ix1 (y 1) := funext fun a => by match a with | ⟨0, _⟩ => rfl
  rw [e0, e1]
  rfl

/-- The mask as a number. -/
theorem v5_at (y : S8192x8192.Idx) : val_main_v5 (F := Ideal) t y = ind t (y 0) (y 1) := by
  rw [val_main_v5_apply, v4_at]
  rfl

/-- The count of samples sharing sample i's identity. -/
theorem v6_at (i : S8192.Idx) : val_main_v6 (F := Ideal) t i = cnt t (i 0) := by
  rw [val_main_v6_apply, val_main_cst_apply]
  show Ideal.ofBits .f32 0x00000000#32 + _ = _
  rw [Ideal.ofBits_zero_f32, zero_add]
  exact Finset.sum_congr rfl fun k _ => v5_at t _

/-- The sum of the samples of sample i's identity. -/
theorem v8_at (y : S8192x128.Idx) : val_main_v8 (F := Ideal) x t y = cnum x t (y 0) (y 1) := by
  rw [val_main_v8_apply]
  refine Finset.sum_congr rfl fun k _ => ?_
  have e : ridx_main_v8 y k = ix2 k (y 1) := funext fun a => by match a with | ⟨0, _⟩ => rfl | ⟨1, _⟩ => rfl
  rw [v5_at, e]
  rfl

/-- The center of sample i's identity. -/
theorem v10_at (y : S8192x128.Idx) : val_main_v10 (F := Ideal) x t y = ctr x t (y 0) (y 1) := by
  rw [val_main_v10_apply, v8_at, val_main_v9_apply, val_main_v7_apply, v6_at]
  rfl

/-- The squared norm of sample j. -/
theorem v12_at (i : S8192.Idx) : val_main_v12 (F := Ideal) x i = x2 x (i 0) := by
  rw [val_main_v12_apply, val_main_cst_0_apply]
  show Ideal.ofBits .f32 0x00000000#32 + _ = _
  rw [Ideal.ofBits_zero_f32, zero_add]
  refine Finset.sum_congr rfl fun k _ => ?_
  have e : idx_main_v12 i k = ix2 (i 0) k := funext fun a => by match a with | ⟨0, _⟩ => rfl | ⟨1, _⟩ => rfl
  rw [val_main_v11_apply, e]
  rfl

/-- The squared norm of center i. -/
theorem v14_at (i : S8192.Idx) : val_main_v14 (F := Ideal) x t i = c2 x t (i 0) := by
  rw [val_main_v14_apply, val_main_cst_1_apply]
  show Ideal.ofBits .f32 0x00000000#32 + _ = _
  rw [Ideal.ofBits_zero_f32, zero_add]
  refine Finset.sum_congr rfl fun k _ => ?_
  rw [val_main_v13_apply, v10_at]
  rfl

/-- The inner product of center i with sample j. -/
theorem v21_at (y : S8192x8192.Idx) : val_main_v21 (F := Ideal) x t y = cross x t (y 0) (y 1) := by
  rw [val_main_v21_apply]
  refine Finset.sum_congr rfl fun k _ => ?_
  have e : idx_main_v20 (ridx_main_v21 y k) = ix2 (y 1) k := funext fun a => by match a with | ⟨0, _⟩ => rfl | ⟨1, _⟩ => rfl
  rw [v10_at, val_main_v20_apply, e]
  rfl

/-- The squared distance from center i to sample j. -/
theorem v24_at (y : S8192x8192.Idx) : val_main_v24 (F := Ideal) x t y = dist x t (y 0) (y 1) := by
  rw [val_main_v24_apply, val_main_v19_apply, val_main_v17_apply, val_main_v15_apply, v14_at, val_main_v18_apply,
    val_main_v16_apply, v12_at, val_main_v23_apply, val_main_v22_apply, val_main_cst_2_apply, v21_at]
  rfl

/-- A row index i with the column k put back on the reduced axis is (i, k). -/
private theorem lift_ix2 (h : S8192x8192.Reduces [1] S8192) (i : S8192.Idx) (k : Fin 8192) :
    h.lift i k = ix2 (i 0) k := by
  funext c; apply Fin.ext
  fin_cases c <;> rfl

/-- The distances to the samples of center i's own identity, −∞ elsewhere. -/
theorem v25_at (y : S8192x8192.Idx) :
    val_main_v25 (F := Ideal) x t y = Scalar.select (bit t (y 0) (y 1)) (dist x t (y 0) (y 1)) negInf := by
  rw [val_main_v25_apply, v4_at, v24_at, val_main_call0_v1_apply, val_main_call0_v0_apply, val_main_cst_3_apply]
  rfl

/-- The distances to the samples of other identities, +∞ elsewhere. -/
theorem v27_at (y : S8192x8192.Idx) :
    val_main_v27 (F := Ideal) x t y = Scalar.select (bit t (y 0) (y 1)) posInf (dist x t (y 0) (y 1)) := by
  rw [val_main_v27_apply, v4_at, v24_at, val_main_call1_v1_apply, val_main_call1_v0_apply, val_main_cst_5_apply]
  rfl

/-- The farthest sample of center i's own identity: the maximum from −∞ over the columns of the masked distances. -/
theorem v26_at (i : S8192.Idx) : val_main_v26 (F := Ideal) x t i = far x t (i 0) := by
  have h : S8192x8192.Reduces [1] S8192 := by decide
  unfold val_main_v26
  rw [Host.reduce_eq_fold_single (FloatOps.maximumf (F := Ideal) (φ := .f32)) _ _ reducesTo_S8192x8192_S8192_d1 h h_S_]
  have hf : (val_main_v25 (F := Ideal) x t ∘ h.lift i)
      = fun j : Fin 8192 => Scalar.select (bit t (i 0) j) (dist x t (i 0) j) negInf :=
    funext fun k : Fin 8192 => (congrArg (val_main_v25 (F := Ideal) x t) (lift_ix2 h i k)).trans (v25_at x t _)
  rw [hf]
  unfold far
  rfl

/-- The nearest sample of another identity: the minimum from +∞ over the columns of the masked distances. -/
theorem v28_at (i : S8192.Idx) : val_main_v28 (F := Ideal) x t i = near x t (i 0) := by
  have h : S8192x8192.Reduces [1] S8192 := by decide
  unfold val_main_v28
  rw [Host.reduce_eq_fold_single (FloatOps.minimumf (F := Ideal) (φ := .f32)) _ _ reducesTo_S8192x8192_S8192_d1 h h_S_]
  have hf : (val_main_v27 (F := Ideal) x t ∘ h.lift i)
      = fun j : Fin 8192 => Scalar.select (bit t (i 0) j) posInf (dist x t (i 0) j) :=
    funext fun k : Fin 8192 => (congrArg (val_main_v27 (F := Ideal) x t) (lift_ix2 h i k)).trans (v27_at x t _)
  rw [hf]
  unfold near
  rfl

/-- A sum over the rank-one indices is the sum over their coordinate. -/
private theorem sum_idx1 (f : S8192.Idx → EReal) : ∑ j : S8192.Idx, f j = ∑ i : Fin 8192, f (ix1 i) := by
  let e : S8192.Idx ≃ Fin 8192 :=
    { toFun := fun j => j 0, invFun := fun i => ix1 i, left_inv := fun j => (eq_ix1 j).symm, right_inv := fun _ => rfl }
  rw [← Equiv.sum_comp e.symm f]
  rfl

/-- The hinge of sample i. -/
theorem v32_at (i : S8192.Idx) : val_main_v32 (F := Ideal) x t i = hinge x t (i 0) := by
  rw [val_main_v32_apply, val_main_v31_apply, val_main_v29_apply, v26_at, v28_at, val_main_v30_apply,
    val_main_cst_7_apply, val_main_call2_v0_apply, val_main_call2_cst_apply]
  show max (far x t (i 0) - near x t (i 0) + margin) (Ideal.ofBits .f32 0x00000000#32) = _
  rw [Ideal.ofBits_zero_f32]
  rfl

/-- Whether sample i's nearest stranger is farther than its farthest kin, as a number. -/
theorem v36_at (i : S8192.Idx) : val_main_v36 (F := Ideal) x t i = won x t (i 0) := by
  rw [val_main_v36_apply, val_main_v35_apply, v26_at, v28_at]
  rfl

/-- The sum of the hinges. -/
theorem v33_at (j : S_.Idx) : val_main_v33 (F := Ideal) x t j = ∑ i : Fin 8192, hinge x t i := by
  rw [val_main_v33_apply, val_main_cst_8_apply]
  show Ideal.ofBits .f32 0x00000000#32 + _ = _
  rw [Ideal.ofBits_zero_f32, zero_add, sum_idx1]
  exact Finset.sum_congr rfl fun i _ => v32_at x t _

/-- The number of samples won. -/
theorem v37_at (j : S_.Idx) : val_main_v37 (F := Ideal) x t j = ∑ i : Fin 8192, won x t i := by
  rw [val_main_v37_apply, val_main_cst_10_apply]
  show Ideal.ofBits .f32 0x00000000#32 + _ = _
  rw [Ideal.ofBits_zero_f32, zero_add, sum_idx1]
  exact Finset.sum_congr rfl fun i _ => v36_at x t _

/-- The reference's first result is the mean hinge. -/
theorem v34_eq : val_main_v34 (F := Ideal) x t = fun _ => loss x t := by
  funext j
  rw [val_main_v34_apply, v33_at, val_main_cst_9_apply]
  rfl

/-- The reference's second result is the fraction of samples won. -/
theorem v38_eq : val_main_v38 (F := Ideal) x t = fun _ => prec x t := by
  funext j
  rw [val_main_v38_apply, v37_at, val_main_cst_11_apply]
  rfl

end Cert.ReferenceIdeal.RefValue

end
-- ==== Proof.KernelRun.lean ====
/-
  The idealized kernel program's run with its two results kept. The program is seven segments — host operations, the
  first launch, host operations, the second launch, three stretches of host operations — and at the end every buffer
  that outlives a launch holds the last boundary's contents; read there, the two results are those contents at the
  result buffers and the two arguments are as launched.
-/
import proofs.«104321_j75900662055339_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the two results at the last
    boundary's contents and the two arguments unchanged. -/
theorem run_results : θ_run defs (onTc (τ := τ) (main (F := F))) ⟨m, fun _ => 0, ρ⟩ (fun r => ∀ c : Dev nD,
      r.2.mem ((c.tc : Thread nD τ).loc main_v20) = W7 m ρ c (Proc.devRef .tc main_v20)
      ∧ r.2.mem ((c.tc : Thread nD τ).loc main_v24) = W7 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v20 (by decide)),
       h c _ (mem_uc main_v24 (by decide)),
       (h c _ (mem_uc main_arg0 (by decide))).trans (W7_main_arg0 m ρ c),
       (h c _ (mem_uc main_arg1 (by decide))).trans (W7_main_arg1 m ρ c)⟩)

end Cert.KernelIdeal.RunValue

end
-- ==== Proof.Region0Pieces.lean ====
/-
  What the first launch's body leaves in its two output blocks at one grid point, as values of the blocks it loaded.

  At a point of the first column block (`j = 0`) the body first stores zeros into both output blocks and reads them
  back, so it leaves `0 + mask · x` and `0 + rowsum mask`; at every other point it reads what the point before left
  and adds the same two terms to it. `k0_pay4` is the accumulated product block, `k0_pay5` the accumulated count column,
  `k0_pay1` and `k0_pay2` the zero blocks.
-/
import proofs.«104321_j75900662055339_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen

variable {F : FTy → Type} [FloatOps F]

theorem hz : (![0, 0] : Fin 2 → Nat) = fun _ => 0 := funext fun a => by fin_cases a <;> rfl

/-- A later point leaves, in the sums' block holding `xo3`, `xo3 + mask · x`. -/
theorem out_B3 (c : Dev nD) (i : grid0.Coords) (arg2 : Memref sig .tc .vmem S512x1 .i32) (harg2 : arg2.IsWhole) (arg3 : Memref sig .tc .vmem S1x1024 .i32) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x1 .f32) (harg6 : arg6.IsWhole) (hc : ¬cond0_0 i)
    (x0 : Vec F S512x1 .i32) (x1 : Vec F S1x1024 .i32) (x2 : Vec F S1024x128 .bf16) (xo3 : Vec F S512x128 .f32) (xo4 : Vec F S512x1 .f32) :
    out0_B_3 c i arg2 harg2 arg3 harg3 arg4 harg4 arg5 harg5 arg6 harg6 hc x0 x1 x2 xo3 xo4 = k0_pay4 x0 x1 x2 xo3 := by
  unfold out0_B_3
  rw [View.read_writes_eq_canon _ _ _ (cover0_B_3 c i arg2 harg2 arg3 harg3 arg4 harg4 arg5 harg5 arg6 harg6 hc x0 x1 x2 xo3 xo4)]
  unfold kernelRun0_B
  dsimp only
  rw [View.canon_unit_zero hz]
  simp only [View.readAt_eq_ld, harg2.read_unread, harg3.read_unread, harg4.read_unread, harg5.read_unread, harg6.read_unread,
    View.ld_unit_zero (S := S512x1) hz, View.ld_unit_zero (S := S1x1024) hz, View.ld_unit_zero (S := S1024x128) hz,
    View.ld_unit_zero (S := S512x128) hz]

/-- … and in the counts' block holding `xo4`, `xo4 + rowsum mask`. -/
theorem out_B4 (c : Dev nD) (i : grid0.Coords) (arg2 : Memref sig .tc .vmem S512x1 .i32) (harg2 : arg2.IsWhole) (arg3 : Memref sig .tc .vmem S1x1024 .i32) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x1 .f32) (harg6 : arg6.IsWhole) (hc : ¬cond0_0 i)
    (x0 : Vec F S512x1 .i32) (x1 : Vec F S1x1024 .i32) (x2 : Vec F S1024x128 .bf16) (xo3 : Vec F S512x128 .f32) (xo4 : Vec F S512x1 .f32) :
    out0_B_4 c i arg2 harg2 arg3 harg3 arg4 harg4 arg5 harg5 arg6 harg6 hc x0 x1 x2 xo3 xo4 = k0_pay5 x0 x1 xo4 := by
  unfold out0_B_4
  rw [View.read_writes_eq_canon _ _ _ (cover0_B_4 c i arg2 harg2 arg3 harg3 arg4 harg4 arg5 harg5 arg6 harg6 hc x0 x1 x2 xo3 xo4)]
  unfold kernelRun0_B
  dsimp only
  rw [View.canon_unit_zero hz]
  simp only [View.readAt_eq_ld, harg2.read_unread, harg3.read_unread, harg4.read_unread, harg5.read_unread, harg6.read_unread,
    View.ld_unit_zero (S := S512x1) hz, View.ld_unit_zero (S := S1x1024) hz, View.ld_unit_zero (S := S1024x128) hz,
    View.ld_unit_zero (S := S512x128) hz]

/-- The first point of a row block leaves `0 + mask · x` in the sums' block: the zeros it stored are what it reads back. -/
theorem out_A3 (c : Dev nD) (i : grid0.Coords) (arg2 : Memref sig .tc .vmem S512x1 .i32) (harg2 : arg2.IsWhole) (arg3 : Memref sig .tc .vmem S1x1024 .i32) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x1 .f32) (harg6 : arg6.IsWhole) (hc : cond0_0 i)
    (x0 : Vec F S512x1 .i32) (x1 : Vec F S1x1024 .i32) (x2 : Vec F S1024x128 .bf16) :
    out0_A_3 c i arg2 harg2 arg3 harg3 arg4 harg4 arg5 harg5 arg6 harg6 hc x0 x1 x2 = k0_pay4 x0 x1 x2 (k0_pay1 (F := F)) := by
  unfold out0_A_3
  rw [View.read_writes_eq_canon _ _ _ (cover0_A_3 c i arg2 harg2 arg3 harg3 arg4 harg4 arg5 harg5 arg6 harg6 hc x0 x1 x2)]
  unfold kernelRun0_A
  dsimp only
  sl_unfold_words
  rw [View.canon_cons_unit_zero (S := S512x128) hz, View.readCov_unit_zero (S := S512x128) _ hz]
  simp only [View.readAt_eq_ld, harg2.read_unread, harg3.read_unread, harg4.read_unread, harg5.read_unread, harg6.read_unread,
    View.ld_unit_zero (S := S512x1) hz, View.ld_unit_zero (S := S1x1024) hz, View.ld_unit_zero (S := S1024x128) hz,
    View.ld_unit_zero (S := S512x128) hz]

/-- … and `0 + rowsum mask` in the counts' block. -/
theorem out_A4 (c : Dev nD) (i : grid0.Coords) (arg2 : Memref sig .tc .vmem S512x1 .i32) (harg2 : arg2.IsWhole) (arg3 : Memref sig .tc .vmem S1x1024 .i32) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x1 .f32) (harg6 : arg6.IsWhole) (hc : cond0_0 i)
    (x0 : Vec F S512x1 .i32) (x1 : Vec F S1x1024 .i32) (x2 : Vec F S1024x128 .bf16) :
    out0_A_4 c i arg2 harg2 arg3 harg3 arg4 harg4 arg5 harg5 arg6 harg6 hc x0 x1 x2 = k0_pay5 x0 x1 (k0_pay2 (F := F)) := by
  unfold out0_A_4
  rw [View.read_writes_eq_canon _ _ _ (cover0_A_4 c i arg2 harg2 arg3 harg3 arg4 harg4 arg5 harg5 arg6 harg6 hc x0 x1 x2)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread,
    View.ld_unit_zero (S := S512x1) hz, View.ld_unit_zero (S := S1x1024) hz, View.ld_unit_zero (S := S1024x128) hz,
    View.ld_unit_zero (S := S512x128) hz]

end Cert.KernelIdeal.Region0

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.Region0Pay.lean ====
/-
  The first launch's two accumulating payloads read at coordinates on the extended reals.

  With `tc` the identities' column block, `tr` their row block, `xs` the samples' block and `acc` what the output
  block held, the sums' payload at `(p, q)` is `acc (p, q) + ∑ₖ same (tc p) (tr k) · xs (k, q)` over the 1024 columns of
  the tile, and the counts' payload at `(p, 0)` is `acc (p, 0) + ∑ₖ same (tc p) (tr k)`, where `same a b` is 1 when
  the two identities are equal and 0 otherwise.
-/
import proofs.«104321_j75900662055339_1_alg».proof.Proof.Gen.KernelIdeal.Skeleton
import proofs.«104321_j75900662055339_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Idealize.ShloMosaic.ValueKeepdims

namespace Cert.KernelIdeal.Region0

open Cert.KernelIdeal Cert.KernelIdeal.Gen

/-- Two identities are the same: 1, or 0. -/
abbrev same (a b : BitVec 32) : EReal := FloatOps.uitofp (F := Ideal) .f32 (IntOp.cmpi .eq a b)

/-- A one-bit word widened with zeros to 32 bits and read as a signed integer is the bit read as a natural number. -/
theorem widen_bit (b : BitVec 1) :
    FloatOps.sitofp (F := Ideal) .f32 (b.setWidth 32) = FloatOps.uitofp (F := Ideal) .f32 b := by
  show (((b.setWidth 32).toInt : ℝ) : EReal) = ((b.toNat : ℝ) : EReal)
  have hb : b = 0#1 ∨ b = 1#1 := by
    by_cases h : b = 1#1
    · exact Or.inr h
    · exact Or.inl (eq_zero_of_ne_one h)
  rcases hb with rfl | rfl
  · have e1 : ((0#1 : BitVec 1).setWidth 32).toInt = 0 := by decide
    have e2 : (0#1 : BitVec 1).toNat = 0 := by decide
    rw [e1, e2]; norm_num
  · have e1 : ((1#1 : BitVec 1).setWidth 32).toInt = 1 := by decide
    have e2 : (1#1 : BitVec 1).toNat = 1 := by decide
    rw [e1, e2]; norm_num

/-- The tile's mask bit at `(p, k)` compares row `p` of the column block with column `k` of the row block. -/
theorem mask_at (tc : Vec Ideal S512x1 .i32) (tr : Vec Ideal S1x1024 .i32) (p : Fin 512) (k : Fin 1024) :
    k0_pay3 (F := Ideal) tc tr (ix2 p k) = IntOp.cmpi .eq (tc (ix2 p (0 : Fin 1))) (tr (ix2 (0 : Fin 1) k)) := by
  unfold k0_pay3
  show IntOp.cmpi .eq (broadcastTo S512x1024 (shapeCast S512x1 tc shapeCasts_S512x1_S512x1) broadcasts_S512x1_S512x1024 (ix2 p k))
      (broadcastTo S512x1024 (shapeCast S1x1024 tr shapeCasts_S1x1024_S1x1024) broadcasts_S1x1024_S512x1024 (ix2 p k)) = _
  rw [shapeCast_self, shapeCast_self, broadcastTo_a1_ab_apply, broadcastTo_1b_ab_apply]

/-- The tile product's operand indices at output `(p, q)` and contraction coordinate `k`: `(p, k)` on the left,
    `(k, q)` on the right. -/
theorem lhs0 (i : S512x128.Idx) (q : dot_S512x1024_S1024x128_S512x128_1_0_0_1_n_n.contr.Idx) : (dot_S512x1024_S1024x128_S512x128_1_0_0_1_n_n.lhsIdx i q 0).val = (i 0).val := by
  unfold DotDims.lhsIdx
  rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
  rfl
theorem lhs1 (i : S512x128.Idx) (q : dot_S512x1024_S1024x128_S512x128_1_0_0_1_n_n.contr.Idx) : (dot_S512x1024_S1024x128_S512x128_1_0_0_1_n_n.lhsIdx i q 1).val = (q ⟨0, by decide⟩).val :=
  dot_S512x1024_S1024x128_S512x128_1_0_0_1_n_n.lhsIdx_val_of_single rfl i q
theorem rhs0 (i : S512x128.Idx) (q : dot_S512x1024_S1024x128_S512x128_1_0_0_1_n_n.contr.Idx) : (dot_S512x1024_S1024x128_S512x128_1_0_0_1_n_n.rhsIdx i q 0).val = (q ⟨0, by decide⟩).val :=
  dot_S512x1024_S1024x128_S512x128_1_0_0_1_n_n.rhsIdx_val_of_single rfl i q
theorem rhs1 (i : S512x128.Idx) (q : dot_S512x1024_S1024x128_S512x128_1_0_0_1_n_n.contr.Idx) : (dot_S512x1024_S1024x128_S512x128_1_0_0_1_n_n.rhsIdx i q 1).val = (i 1).val := by
  unfold DotDims.rhsIdx
  rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
  rfl

/-- The sums' payload at `(p, q)`. -/
theorem sums_at (tc : Vec Ideal S512x1 .i32) (tr : Vec Ideal S1x1024 .i32) (xs : Vec Ideal S1024x128 .bf16)
    (acc : Vec Ideal S512x128 .f32) (p : Fin 512) (q : Fin 128) :
    k0_pay4 (F := Ideal) tc tr xs acc (ix2 p q)
      = acc (ix2 p q) + ∑ k : Fin 1024, same (tc (ix2 p (0 : Fin 1))) (tr (ix2 (0 : Fin 1) k)) * xs (ix2 k q) := by
  unfold k0_pay4
  show shapeCast S512x128 acc shapeCasts_S512x128_S512x128 (ix2 p q)
      + matmul (F := Ideal) dot_S512x1024_S1024x128_S512x128_1_0_0_1_n_n none
          (truncf (F := Ideal) .bf16 (sitofp (F := Ideal) .f32 (extui 32 (k0_pay3 (F := Ideal) tc tr) natLt_1_32)) bitsLt_bf16_f32)
          (shapeCast S1024x128 xs shapeCasts_S1024x128_S1024x128) (constant (F := Ideal) S512x128 .f32 0x00000000#32) (ix2 p q) = _
  rw [shapeCast_self, shapeCast_self]
  refine congrArg (acc (ix2 p q) + ·) ?_
  simp only [matmul]
  rw [Ideal.matmul_constant_zero_apply, ← Equiv.sum_comp (contrEquiv1 dot_S512x1024_S1024x128_S512x128_1_0_0_1_n_n 1024 rfl rfl).symm]
  refine Finset.sum_congr rfl fun k _ => ?_
  have hk := contrEquiv1_symm_val dot_S512x1024_S1024x128_S512x128_1_0_0_1_n_n 1024 rfl rfl k
  have el : dot_S512x1024_S1024x128_S512x128_1_0_0_1_n_n.lhsIdx (ix2 p q) ((contrEquiv1 dot_S512x1024_S1024x128_S512x128_1_0_0_1_n_n 1024 rfl rfl).symm k) = ix2 p k := funext fun a => Fin.ext (by
    match a with
    | ⟨0, _⟩ => exact lhs0 _ _
    | ⟨1, _⟩ => exact (lhs1 _ _).trans hk)
  have er : dot_S512x1024_S1024x128_S512x128_1_0_0_1_n_n.rhsIdx (ix2 p q) ((contrEquiv1 dot_S512x1024_S1024x128_S512x128_1_0_0_1_n_n 1024 rfl rfl).symm k) = ix2 k q := funext fun a => Fin.ext (by
    match a with
    | ⟨0, _⟩ => exact (rhs0 _ _).trans hk
    | ⟨1, _⟩ => exact rhs1 _ _)
  rw [el, er]
  show FloatOps.sitofp (F := Ideal) .f32 ((k0_pay3 (F := Ideal) tc tr (ix2 p k)).setWidth 32) * xs (ix2 k q) = _
  rw [widen_bit, mask_at]

/-- The counts' payload at `(p, 0)`. -/
theorem counts_at (tc : Vec Ideal S512x1 .i32) (tr : Vec Ideal S1x1024 .i32) (acc : Vec Ideal S512x1 .f32) (p : Fin 512) (u : Fin 1) :
    k0_pay5 (F := Ideal) tc tr acc (ix2 p u)
      = acc (ix2 p u) + ∑ k : Fin 1024, same (tc (ix2 p (0 : Fin 1))) (tr (ix2 (0 : Fin 1) k)) := by
  unfold k0_pay5
  show shapeCast S512x1 acc shapeCasts_S512x1_S512x1 (ix2 p u)
      + shapeCast S512x1 (multiReduction (F := Ideal) .add [1] S512 (sitofp (F := Ideal) .f32 (extui 32 (k0_pay3 (F := Ideal) tc tr) natLt_1_32))
          0x00000000#32 reduces_S512x1024_S512 (.inl rfl) rfl) shapeCasts_S512_S512x1 (ix2 p u) = _
  rw [shapeCast_self, shapeCast_a_a1_apply]
  refine congrArg (acc (ix2 p u) + ·) ?_
  refine (multiReduction_add_row (a := 512) (b := 1024) (φ := .f32)
    (sitofp (F := Ideal) .f32 (extui 32 (k0_pay3 (F := Ideal) tc tr) natLt_1_32)) 0x00000000#32 reduces_S512x1024_S512 (.inl rfl) rfl p).trans ?_
  refine Finset.sum_congr rfl fun k _ => ?_
  show FloatOps.sitofp (F := Ideal) .f32 ((k0_pay3 (F := Ideal) tc tr (ix2 p k)).setWidth 32) = _
  rw [widen_bit, mask_at]

/-- The zero blocks the first point of a row block stores read 0 everywhere. -/
theorem zeros3_at (y : S512x128.Idx) : k0_pay1 (F := Ideal) y = 0 := by
  show Ideal.ofBits .f32 0x00000000#32 = 0
  exact Ideal.ofBits_zero_f32
theorem zeros4_at (y : S512x1.Idx) : k0_pay2 (F := Ideal) y = 0 := by
  show Ideal.ofBits .f32 0x00000000#32 = 0
  exact Ideal.ofBits_zero_f32

end Cert.KernelIdeal.Region0

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.Region0Acc.lean ====
/-
  The first launch read whole: after the eight column blocks of a row block its two output blocks hold the per-identity
  sums and counts of that row block, and the launch leaves `cnumK` and `cntK` of its three operand arrays.

  Point `t = 8·i + j` of the 16 × 8 grid works on row block `i` (rows `512·i … 512·i + 511`) and column block `j`
  (columns `1024·j … 1024·j + 1023`). Its three input blocks are those rows of the identities' column, those columns of
  their row, and those rows of the samples. After it, the sums' block holds, at `(p, q)`, the sum over the column blocks
  `s ≤ j` of `∑ₖ ind (512·i + p) (1024·s + k) · x (1024·s + k, q)` — by induction on the point: the first column block
  starts from the zeros it stored, every later one adds its term to what the point before left. At `j = 7` that is the
  sum over all eight blocks, which is the sum over all 8192 columns; the block is written back there, and the sixteen
  row blocks tile the array.
-/
import proofs.«104321_j75900662055339_1_alg».proof.Proof.Gen.KernelIdeal.Frame
import proofs.«104321_j75900662055339_1_alg».proof.Proof.Region0Pieces
import proofs.«104321_j75900662055339_1_alg».proof.Proof.Region0Pay
import proofs.«104321_j75900662055339_1_alg».proof.Proof.LibBlockSum
import proofs.«104321_j75900662055339_1_alg».proof.Proof.Spec
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Mine

variable (V : (c : Dev nD) → (b : Ref sig .tc) → Buf (Elt Ideal) ((c : Thread nD τ).loc b))

/-! ## The windows' index maps over the grid, and the input blocks read at coordinates -/

theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx1 : ∀ t : Fin cfg0.N, win0_1.index t (0 : Fin 2) = 0 ∧ win0_1.index t (1 : Fin 2) = t.val % 8 :=
  (by decide +kernel : ∀ t : Fin grid0.N, win0_1.index t (0 : Fin 2) = 0 ∧ win0_1.index t (1 : Fin 2) = t.val % 8)
theorem idx2 : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)

theorem iblk0_at (c : Dev nD) (t : Fin cfg0.N) (p : Fin 512) (u : Fin 1) (r : Fin 8192) (hr : r.val = 512 * (t.val / 8) + p.val) :
    (iblk0 (F := Ideal) V c 0 t : Vec Ideal S512x1 .i32) (ix2 p u) = V c main_v0 (ix2 r (0 : Fin 1)) := by
  unfold iblk0
  rw [View.read_apply]
  show V c main_v0 (((cfg0.win 0).blk t).view.emb (ix2 p u)) = V c main_v0 (ix2 r (0 : Fin 1))
  refine congrArg (V c main_v0) (funext fun a => Fin.ext ?_)
  match a with
  | ⟨0, _⟩ => show win0_0.index t 0 * 512 + 1 * p.val = r.val; rw [(idx0 t).1, hr]; omega
  | ⟨1, _⟩ => show win0_0.index t 1 * 1 + 1 * u.val = 0; rw [(idx0 t).2]; omega

theorem iblk1_at (c : Dev nD) (t : Fin cfg0.N) (u : Fin 1) (k : Fin 1024) (j : Fin 8192) (hj : j.val = (t.val % 8) * 1024 + k.val) :
    (iblk0 (F := Ideal) V c 1 t : Vec Ideal S1x1024 .i32) (ix2 u k) = V c main_v1 (ix2 (0 : Fin 1) j) := by
  unfold iblk0
  rw [View.read_apply]
  show V c main_v1 (((cfg0.win 1).blk t).view.emb (ix2 u k)) = V c main_v1 (ix2 (0 : Fin 1) j)
  refine congrArg (V c main_v1) (funext fun a => Fin.ext ?_)
  match a with
  | ⟨0, _⟩ => show win0_1.index t 0 * 1 + 1 * u.val = 0; rw [(idx1 t).1]; omega
  | ⟨1, _⟩ => show win0_1.index t 1 * 1024 + 1 * k.val = j.val; rw [(idx1 t).2, hj]; omega

theorem iblk2_at (c : Dev nD) (t : Fin cfg0.N) (k : Fin 1024) (q : Fin 128) (j : Fin 8192) (hj : j.val = (t.val % 8) * 1024 + k.val) :
    (iblk0 (F := Ideal) V c 2 t : Vec Ideal S1024x128 .bf16) (ix2 k q) = V c main_v2 (ix2 j q) := by
  unfold iblk0
  rw [View.read_apply]
  show V c main_v2 (((cfg0.win 2).blk t).view.emb (ix2 k q)) = V c main_v2 (ix2 j q)
  refine congrArg (V c main_v2) (funext fun a => Fin.ext ?_)
  match a with
  | ⟨0, _⟩ => show win0_2.index t 0 * 1024 + 1 * k.val = j.val; rw [(idx2 t).1, hj]; omega
  | ⟨1, _⟩ => show win0_2.index t 1 * 128 + 1 * q.val = q.val; rw [(idx2 t).2]; omega

/-! ## The column blocks -/

/-- Column `k` of column block `s`. -/
def col (s : Fin 8) (k : Fin 1024) : Fin 8192 := ⟨s.val * 1024 + k.val, by have := s.isLt; have := k.isLt; omega⟩

/-- The column blocks up to the `j`-th. -/
def upto (j : ℕ) : Finset (Fin 8) := Finset.univ.filter fun s => s.val ≤ j

theorem upto_zero : upto 0 = {(0 : Fin 8)} := by decide
theorem upto_succ (j : ℕ) (h : j + 1 < 8) : upto (j + 1) = insert (⟨j + 1, h⟩ : Fin 8) (upto j) := by
  ext s
  simp only [upto, Finset.mem_filter, Finset.mem_univ, true_and, Finset.mem_insert, Fin.ext_iff]
  omega
theorem not_mem_upto (j : ℕ) (h : j + 1 < 8) : (⟨j + 1, h⟩ : Fin 8) ∉ upto j := by
  simp only [upto, Finset.mem_filter, Finset.mem_univ, true_and]
  omega
theorem upto_last (j : ℕ) (h : 7 ≤ j) : upto j = Finset.univ := by
  ext s
  simp only [upto, Finset.mem_filter, Finset.mem_univ, true_and, iff_true]
  have := s.isLt; omega

/-- One column block's term of the sums at row `r`, coordinate `q`, and of the counts at row `r`. -/
def sumsTerm (tc : SC.Idx → BitVec 32) (tr : SR.Idx → BitVec 32) (xb : SX.Idx → EReal) (r : Fin 8192) (q : Fin 128) (s : Fin 8) : EReal :=
  ∑ k : Fin 1024, indK tc tr r (col s k) * xb (ix2 (col s k) q)
def cntTerm (tc : SC.Idx → BitVec 32) (tr : SR.Idx → BitVec 32) (r : Fin 8192) (s : Fin 8) : EReal :=
  ∑ k : Fin 1024, indK tc tr r (col s k)

/-- All eight column blocks' terms make the sum over all 8192 columns. -/
theorem sum_terms (H : Fin 8192 → EReal) : ∑ s : Fin 8, ∑ k : Fin 1024, H (col s k) = ∑ j : Fin 8192, H j :=
  (Cert.Lib.BlockSum.sum_blocks 8 1024 H).symm

/-! ## One point's step, read at coordinates -/

/-- The sums' payload at a point, at `(p, q)`: what the block held there plus the point's column block's term. -/
theorem sums_step (c : Dev nD) (t : Fin cfg0.N) (acc : Vec Ideal S512x128 .f32) (p : Fin 512) (q : Fin 128) (r : Fin 8192)
    (hr : r.val = 512 * (t.val / 8) + p.val) (s : Fin 8) (hs : s.val = t.val % 8) :
    k0_pay4 (F := Ideal) (iblk0 (F := Ideal) V c 0 t) (iblk0 (F := Ideal) V c 1 t) (iblk0 (F := Ideal) V c 2 t) acc (ix2 p q)
      = acc (ix2 p q) + sumsTerm (V c main_v0) (V c main_v1) (V c main_v2) r q s := by
  refine (sums_at (iblk0 (F := Ideal) V c 0 t) (iblk0 (F := Ideal) V c 1 t) (iblk0 (F := Ideal) V c 2 t) acc p q).trans ?_
  refine congrArg (acc (ix2 p q) + ·) (Finset.sum_congr rfl fun k _ => ?_)
  rw [iblk0_at V c t p (0 : Fin 1) r hr, iblk1_at V c t (0 : Fin 1) k (col s k) (by show s.val * 1024 + k.val = _; rw [hs]),
    iblk2_at V c t k q (col s k) (by show s.val * 1024 + k.val = _; rw [hs])]
  rfl

/-- The counts' payload at a point, at `(p, 0)`. -/
theorem counts_step (c : Dev nD) (t : Fin cfg0.N) (acc : Vec Ideal S512x1 .f32) (p : Fin 512) (u : Fin 1) (r : Fin 8192)
    (hr : r.val = 512 * (t.val / 8) + p.val) (s : Fin 8) (hs : s.val = t.val % 8) :
    k0_pay5 (F := Ideal) (iblk0 (F := Ideal) V c 0 t) (iblk0 (F := Ideal) V c 1 t) acc (ix2 p u)
      = acc (ix2 p u) + cntTerm (V c main_v0) (V c main_v1) r s := by
  refine (counts_at (iblk0 (F := Ideal) V c 0 t) (iblk0 (F := Ideal) V c 1 t) acc p u).trans ?_
  refine congrArg (acc (ix2 p u) + ·) (Finset.sum_congr rfl fun k _ => ?_)
  rw [iblk0_at V c t p (0 : Fin 1) r hr, iblk1_at V c t (0 : Fin 1) k (col s k) (by show s.val * 1024 + k.val = _; rw [hs])]
  rfl

/-- What the two output blocks hold after a first point of a row block, and after a later point. -/
theorem at_first (c : Dev nD) (t : Fin cfg0.N) (h0 : t.val % 8 = 0) :
    (outsAt0 (F := Ideal) V c t.val t.isLt).1 = k0_pay4 (iblk0 V c 0 t) (iblk0 V c 1 t) (iblk0 V c 2 t) (k0_pay1 (F := Ideal))
    ∧ (outsAt0 (F := Ideal) V c t.val t.isLt).2 = k0_pay5 (iblk0 V c 0 t) (iblk0 V c 1 t) (k0_pay2 (F := Ideal)) := by
  rw [outsAt0_A (F := Ideal) V c t h0]
  dsimp only
  exact ⟨out_A3 .., out_A4 ..⟩

theorem at_later (c : Dev nD) (t : Fin cfg0.N) (h0 : ¬t.val % 8 = 0) :
    (outsAt0 (F := Ideal) V c t.val t.isLt).1 = k0_pay4 (iblk0 V c 0 t) (iblk0 V c 1 t) (iblk0 V c 2 t)
        (outsAt0 (F := Ideal) V c (t.val - 1) (Nat.lt_of_le_of_lt (Nat.sub_le _ _) t.isLt)).1
    ∧ (outsAt0 (F := Ideal) V c t.val t.isLt).2 = k0_pay5 (iblk0 V c 0 t) (iblk0 V c 1 t)
        (outsAt0 (F := Ideal) V c (t.val - 1) (Nat.lt_of_le_of_lt (Nat.sub_le _ _) t.isLt)).2 := by
  rw [outsAt0_B (F := Ideal) V c t h0]
  dsimp only
  exact ⟨out_B3 .., out_B4 ..⟩

end Cert.KernelIdeal.Region0

end
-- ==== Proof.Region0Final.lean ====
/-
  The first launch's two result arrays.

  By induction on the grid point, after point `n` the two output blocks of row block `n / 8` hold the column blocks'
  terms up to the `n % 8`-th (`acc_inv`): a first column block starts from the zeros it stored, a later one adds its
  term to what the point before left. At the last column block that is the sum over all 8192 columns (`block_done`),
  the block written back there is that row block of `cnumK` / `cntK` (`flushed3`, `flushed4`), and the sixteen row
  blocks cover the arrays (`cover3`, `cover4`): the launch leaves `cnumK` and `cntK` of its operand arrays.
-/
import proofs.«104321_j75900662055339_1_alg».proof.Proof.Gen.KernelIdeal.Frame
import proofs.«104321_j75900662055339_1_alg».proof.Proof.Region0Pieces
import proofs.«104321_j75900662055339_1_alg».proof.Proof.Region0Pay
import proofs.«104321_j75900662055339_1_alg».proof.Proof.Region0Acc
import proofs.«104321_j75900662055339_1_alg».proof.Proof.LibBlockSum
import proofs.«104321_j75900662055339_1_alg».proof.Proof.Spec
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Mine

variable (V : (c : Dev nD) → (b : Ref sig .tc) → Buf (Elt Ideal) ((c : Thread nD τ).loc b))

/-- After point `n` of row block `n / 8` the two output blocks hold, at row `p`, the column blocks' terms up to the
    `n % 8`-th. -/
theorem acc_inv (c : Dev nD) : ∀ (n : ℕ) (hn : n < cfg0.N) (p : Fin 512) (r : Fin 8192), r.val = 512 * (n / 8) + p.val →
    (∀ q : Fin 128, (outsAt0 (F := Ideal) V c n hn).1 (ix2 p q)
        = ∑ s ∈ upto (n % 8), sumsTerm (V c main_v0) (V c main_v1) (V c main_v2) r q s)
    ∧ (∀ u : Fin 1, (outsAt0 (F := Ideal) V c n hn).2 (ix2 p u)
        = ∑ s ∈ upto (n % 8), cntTerm (V c main_v0) (V c main_v1) r s) := by
  intro n
  induction n with
  | zero =>
    intro hn p r hr
    have hA := at_first V c ⟨0, hn⟩ rfl
    refine ⟨fun q => ?_, fun u => ?_⟩
    · rw [show (outsAt0 (F := Ideal) V c 0 hn).1 = _ from hA.1, sums_step V c ⟨0, hn⟩ _ p q r hr 0 rfl, zeros3_at, zero_add]
      show _ = ∑ s ∈ upto 0, _
      rw [upto_zero, Finset.sum_singleton]
    · rw [show (outsAt0 (F := Ideal) V c 0 hn).2 = _ from hA.2, counts_step V c ⟨0, hn⟩ _ p u r hr 0 rfl, zeros4_at, zero_add]
      show _ = ∑ s ∈ upto 0, _
      rw [upto_zero, Finset.sum_singleton]
  | succ n ih =>
    intro hn p r hr
    by_cases h0 : (n + 1) % 8 = 0
    · have hA := at_first V c ⟨n + 1, hn⟩ h0
      refine ⟨fun q => ?_, fun u => ?_⟩
      · rw [show (outsAt0 (F := Ideal) V c (n + 1) hn).1 = _ from hA.1,
          sums_step V c ⟨n + 1, hn⟩ _ p q r hr 0 (by show (0 : ℕ) = (n + 1) % 8; omega), zeros3_at, zero_add, h0, upto_zero,
          Finset.sum_singleton]
      · rw [show (outsAt0 (F := Ideal) V c (n + 1) hn).2 = _ from hA.2,
          counts_step V c ⟨n + 1, hn⟩ _ p u r hr 0 (by show (0 : ℕ) = (n + 1) % 8; omega), zeros4_at, zero_add, h0, upto_zero,
          Finset.sum_singleton]
    · have hB := at_later V c ⟨n + 1, hn⟩ h0
      obtain ⟨ih3, ih4⟩ := ih (Nat.lt_of_succ_lt hn) p r (by omega)
      have hj : n % 8 + 1 < 8 := by omega
      have hm : (n + 1) % 8 = n % 8 + 1 := by omega
      refine ⟨fun q => ?_, fun u => ?_⟩
      · rw [show (outsAt0 (F := Ideal) V c (n + 1) hn).1 = _ from hB.1,
          sums_step V c ⟨n + 1, hn⟩ _ p q r hr ⟨n % 8 + 1, hj⟩ (by show n % 8 + 1 = (n + 1) % 8; omega),
          hm, upto_succ _ hj, Finset.sum_insert (not_mem_upto _ hj), add_comm]
        exact congrArg (_ + ·) (ih3 q)
      · rw [show (outsAt0 (F := Ideal) V c (n + 1) hn).2 = _ from hB.2,
          counts_step V c ⟨n + 1, hn⟩ _ p u r hr ⟨n % 8 + 1, hj⟩ (by show n % 8 + 1 = (n + 1) % 8; omega),
          hm, upto_succ _ hj, Finset.sum_insert (not_mem_upto _ hj), add_comm]
        exact congrArg (_ + ·) (ih4 u)

/-- After the last column block of a row block the two output blocks hold that row block of `cnumK` and `cntK`. -/
theorem block_done (c : Dev nD) (t : Fin cfg0.N) (h7 : t.val % 8 = 7) (p : Fin 512) (r : Fin 8192)
    (hr : r.val = 512 * (t.val / 8) + p.val) :
    (∀ q : Fin 128, (outsAt0 (F := Ideal) V c t.val t.isLt).1 (ix2 p q) = cnumK (V c main_v0) (V c main_v1) (V c main_v2) (ix2 r q))
    ∧ (∀ u : Fin 1, (outsAt0 (F := Ideal) V c t.val t.isLt).2 (ix2 p u) = cntK (V c main_v0) (V c main_v1) (ix2 r u)) := by
  obtain ⟨h3, h4⟩ := acc_inv V c t.val t.isLt p r hr
  refine ⟨fun q => (h3 q).trans ?_, fun u => (h4 u).trans ?_⟩
  · rw [h7, upto_last 7 le_rfl]
    exact sum_terms fun j => indK (V c main_v0) (V c main_v1) r j * (V c main_v2) (ix2 j q)
  · rw [h7, upto_last 7 le_rfl]
    exact sum_terms fun j => indK (V c main_v0) (V c main_v1) r j

/-! ## The write-back, the cover, and the arrays the launch leaves -/

theorem idx3 : ∀ t : Fin cfg0.N, win0_3.index t (0 : Fin 2) = t.val / 8 ∧ win0_3.index t (1 : Fin 2) = 0
    ∧ win0_3.xsize (grid0.coords t) (0 : Fin 2) = 512 ∧ win0_3.xsize (grid0.coords t) (1 : Fin 2) = 128 :=
  (by decide +kernel : ∀ t : Fin grid0.N, win0_3.index t (0 : Fin 2) = t.val / 8 ∧ win0_3.index t (1 : Fin 2) = 0
    ∧ win0_3.xsize (grid0.coords t) (0 : Fin 2) = 512 ∧ win0_3.xsize (grid0.coords t) (1 : Fin 2) = 128)
theorem idx4 : ∀ t : Fin cfg0.N, win0_4.index t (0 : Fin 2) = t.val / 8 ∧ win0_4.index t (1 : Fin 2) = 0
    ∧ win0_4.xsize (grid0.coords t) (0 : Fin 2) = 512 ∧ win0_4.xsize (grid0.coords t) (1 : Fin 2) = 1 :=
  (by decide +kernel : ∀ t : Fin grid0.N, win0_4.index t (0 : Fin 2) = t.val / 8 ∧ win0_4.index t (1 : Fin 2) = 0
    ∧ win0_4.xsize (grid0.coords t) (0 : Fin 2) = 512 ∧ win0_4.xsize (grid0.coords t) (1 : Fin 2) = 1)

/-- The block written back after the last column block of a row block is that row block of `cnumK`. -/
theorem flushed3 (c : Dev nD) (t : Fin cfg0.N) (hf : (cfg0.win 3).flush t = true) :
    (dat0 (F := Ideal) V c).flushed 3 t
      = ((cfg0.win 3).blk t).view.read (Elt Ideal) (cnumK (V c main_v0) (V c main_v1) (V c main_v2)) := by
  have h7 : t.val % 8 = 7 := (flush0_3 t).mp hf
  have hN : t.val < 128 := lt_of_lt_of_eq t.isLt (show cfg0.N = 128 from N_0)
  show (cfg0.win 3).cut (grid0.coords t) ((dat0 (F := Ideal) V c).after 3 t) = _
  rw [after0_3]
  funext y
  rw [View.read_apply]
  show (outsAt0 (F := Ideal) V c t.val t.isLt).1 y
    = cnumK (V c main_v0) (V c main_v1) (V c main_v2) (((cfg0.win 3).blk t).view.emb y)
  obtain ⟨p, q, rfl⟩ : ∃ (p : Fin 512) (q : Fin 128), y = ix2 p q := ⟨y 0, y 1, eq_ix2 y⟩
  have hemb : ((cfg0.win 3).blk t).view.emb (ix2 p q) = ix2 (⟨512 * (t.val / 8) + p.val, by omega⟩ : Fin 8192) q :=
    funext fun a => Fin.ext (by
      match a with
      | ⟨0, _⟩ => show win0_3.index t 0 * 512 + 1 * p.val = 512 * (t.val / 8) + p.val; rw [(idx3 t).1]; omega
      | ⟨1, _⟩ => show win0_3.index t 1 * 128 + 1 * q.val = q.val; rw [(idx3 t).2.1]; omega)
  rw [hemb]
  exact (block_done V c t h7 p _ rfl).1 q

theorem flushed4 (c : Dev nD) (t : Fin cfg0.N) (hf : (cfg0.win 4).flush t = true) :
    (dat0 (F := Ideal) V c).flushed 4 t
      = ((cfg0.win 4).blk t).view.read (Elt Ideal) (cntK (V c main_v0) (V c main_v1)) := by
  have h7 : t.val % 8 = 7 := (flush0_4 t).mp hf
  have hN : t.val < 128 := lt_of_lt_of_eq t.isLt (show cfg0.N = 128 from N_0)
  show (cfg0.win 4).cut (grid0.coords t) ((dat0 (F := Ideal) V c).after 4 t) = _
  rw [after0_4]
  funext y
  rw [View.read_apply]
  show (outsAt0 (F := Ideal) V c t.val t.isLt).2 y
    = cntK (V c main_v0) (V c main_v1) (((cfg0.win 4).blk t).view.emb y)
  obtain ⟨p, u, rfl⟩ : ∃ (p : Fin 512) (u : Fin 1), y = ix2 p u := ⟨y 0, y 1, eq_ix2 y⟩
  have hemb : ((cfg0.win 4).blk t).view.emb (ix2 p u) = ix2 (⟨512 * (t.val / 8) + p.val, by omega⟩ : Fin 8192) u :=
    funext fun a => Fin.ext (by
      match a with
      | ⟨0, _⟩ => show win0_4.index t 0 * 512 + 1 * p.val = 512 * (t.val / 8) + p.val; rw [(idx4 t).1]; omega
      | ⟨1, _⟩ => show win0_4.index t 1 * 1 + 1 * u.val = u.val; rw [(idx4 t).2.1]; omega)
  rw [hemb]
  exact (block_done V c t h7 p _ rfl).2 u

/-- Row `i 0` lies in the block of row block `(i 0) / 512`, whatever the column block. -/
theorem mem_blk3 (i : S8192x128.Idx) (t : Fin cfg0.N) (ht : t.val / 8 = (i 0).val / 512) : i ∈ ((cfg0.win 3).blk t).view.set := by
  have h0 : (i 0 : ℕ) < 8192 := (i 0).isLt
  have h1 : (i 1 : ℕ) < 128 := (i 1).isLt
  show i ∈ ((View.whole main_v7_0).slice (win0_3.rect t)).set
  rw [View.set_slice_whole, Rect.mem_set_unit]
  intro a
  match a with
  | ⟨0, _⟩ =>
    show win0_3.index t 0 * win0_3.size 0 ≤ (i 0 : ℕ) ∧ (i 0 : ℕ) < win0_3.index t 0 * win0_3.size 0 + win0_3.xsize (grid0.coords t) 0
    rw [(idx3 t).1, (idx3 t).2.2.1, ht]
    show (i 0).val / 512 * 512 ≤ (i 0 : ℕ) ∧ (i 0 : ℕ) < (i 0).val / 512 * 512 + 512
    omega
  | ⟨1, _⟩ =>
    show win0_3.index t 1 * win0_3.size 1 ≤ (i 1 : ℕ) ∧ (i 1 : ℕ) < win0_3.index t 1 * win0_3.size 1 + win0_3.xsize (grid0.coords t) 1
    rw [(idx3 t).2.1, (idx3 t).2.2.2]
    omega

theorem mem_blk4 (i : S8192x1.Idx) (t : Fin cfg0.N) (ht : t.val / 8 = (i 0).val / 512) : i ∈ ((cfg0.win 4).blk t).view.set := by
  have h0 : (i 0 : ℕ) < 8192 := (i 0).isLt
  have h1 : (i 1 : ℕ) < 1 := (i 1).isLt
  show i ∈ ((View.whole main_v7_1).slice (win0_4.rect t)).set
  rw [View.set_slice_whole, Rect.mem_set_unit]
  intro a
  match a with
  | ⟨0, _⟩ =>
    show win0_4.index t 0 * win0_4.size 0 ≤ (i 0 : ℕ) ∧ (i 0 : ℕ) < win0_4.index t 0 * win0_4.size 0 + win0_4.xsize (grid0.coords t) 0
    rw [(idx4 t).1, (idx4 t).2.2.1, ht]
    show (i 0).val / 512 * 512 ≤ (i 0 : ℕ) ∧ (i 0 : ℕ) < (i 0).val / 512 * 512 + 512
    omega
  | ⟨1, _⟩ =>
    show win0_4.index t 1 * win0_4.size 1 ≤ (i 1 : ℕ) ∧ (i 1 : ℕ) < win0_4.index t 1 * win0_4.size 1 + win0_4.xsize (grid0.coords t) 1
    rw [(idx4 t).2.1, (idx4 t).2.2.2]
    omega

/-- Every entry of the two result arrays lies in the block written back at the last column block of its row block. -/
theorem cover3 (i : S8192x128.Idx) : ∃ t : Fin cfg0.N, (cfg0.win 3).flush t = true ∧ i ∈ ((cfg0.win 3).blk t).view.set := by
  have h0 : (i 0 : ℕ) < 8192 := (i 0).isLt
  have hN : cfg0.N = 128 := N_0
  exact ⟨⟨8 * ((i 0).val / 512) + 7, by rw [hN]; omega⟩, (flush0_3 _).mpr (by show (8 * ((i 0).val / 512) + 7) % 8 = 7; omega),
    mem_blk3 i _ (by show (8 * ((i 0).val / 512) + 7) / 8 = (i 0).val / 512; omega)⟩

theorem cover4 (i : S8192x1.Idx) : ∃ t : Fin cfg0.N, (cfg0.win 4).flush t = true ∧ i ∈ ((cfg0.win 4).blk t).view.set := by
  have h0 : (i 0 : ℕ) < 8192 := (i 0).isLt
  have hN : cfg0.N = 128 := N_0
  exact ⟨⟨8 * ((i 0).val / 512) + 7, by rw [hN]; omega⟩, (flush0_4 _).mpr (by show (8 * ((i 0).val / 512) + 7) % 8 = 7; omega),
    mem_blk4 i _ (by show (8 * ((i 0).val / 512) + 7) / 8 = (i 0).val / 512; omega)⟩

/-- The first launch leaves the per-identity sums and counts of its operand arrays. -/
theorem sums_array (c : Dev nD) :
    (dat0 (F := Ideal) V c).arrAt 3 cfg0.N = cnumK (V c main_v0) (V c main_v1) (V c main_v2) :=
  (dat0 (F := Ideal) V c).arrAt_eq_of_cover 3 (cnumK (V c main_v0) (V c main_v1) (V c main_v2)) (flushed3 V c) cover3

theorem counts_array (c : Dev nD) :
    (dat0 (F := Ideal) V c).arrAt 4 cfg0.N = cntK (V c main_v0) (V c main_v1) :=
  (dat0 (F := Ideal) V c).arrAt_eq_of_cover 4 (cntK (V c main_v0) (V c main_v1)) (flushed4 V c) cover4

end Cert.KernelIdeal.Region0

end
-- ==== Proof.Region1Pieces.lean ====
/-
  What the second launch's body leaves in its two output blocks at one grid point, as values of the blocks it loaded.

  At a point of the first column block (`j = 0`) the body first stores −∞ into the block of maxima and +∞ into the
  block of minima and reads them back, so it leaves `max (−∞) (rowmax far-tile)` and `min (+∞) (rowmin near-tile)`;
  at every other point it reads what the point before left and folds the same two row reductions into it.
  `k1_pay7` is the updated column of maxima, `k1_pay1` the updated column of minima over the tile `k1_pay6`,
  `k1_pay2` and `k1_pay3` the two constant columns.
-/
import proofs.«104321_j75900662055339_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen

variable {F : FTy → Type} [FloatOps F]

theorem hz : (![0, 0] : Fin 2 → Nat) = fun _ => 0 := funext fun a => by fin_cases a <;> rfl

/-- A later point leaves, in the block of maxima holding `xo6`, the larger of `xo6` and the far-tile's row maxima. -/
theorem out_B6 (c : Dev nD) (i : grid1.Coords) (arg2 : Memref sig .tc .vmem S512x1 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (hc : ¬cond1_0 i)
    (x0 : Vec F S512x1 .i32) (x1 : Vec F S1x1024 .i32) (x2 : Vec F S512x128 .bf16) (x3 : Vec F S1024x128 .bf16) (x4 : Vec F S512x1 .f32) (x5 : Vec F S1x1024 .f32) (xo6 : Vec F S512x1 .f32) (xo7 : Vec F S512x1 .f32) :
    out1_B_6 c i arg2 harg2 arg3 harg3 arg4 harg4 arg5 harg5 arg6 harg6 arg7 harg7 arg8 harg8 arg9 harg9 hc x0 x1 x2 x3 x4 x5 xo6 xo7 = k1_pay7 x0 x1 x2 x3 x4 x5 xo6 := by
  unfold out1_B_6
  rw [View.read_writes_eq_canon _ _ _ (cover1_B_6 c i arg2 harg2 arg3 harg3 arg4 harg4 arg5 harg5 arg6 harg6 arg7 harg7 arg8 harg8 arg9 harg9 hc x0 x1 x2 x3 x4 x5 xo6 xo7)]
  unfold kernelRun1_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread,
    View.ld_unit_zero (S := S512x1) hz, View.ld_unit_zero (S := S1x1024) hz, View.ld_unit_zero (S := S1024x128) hz,
    View.ld_unit_zero (S := S512x128) hz]

/-- … and in the block of minima holding `xo7`, the smaller of `xo7` and the near-tile's row minima. -/
theorem out_B7 (c : Dev nD) (i : grid1.Coords) (arg2 : Memref sig .tc .vmem S512x1 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (hc : ¬cond1_0 i)
    (x0 : Vec F S512x1 .i32) (x1 : Vec F S1x1024 .i32) (x2 : Vec F S512x128 .bf16) (x3 : Vec F S1024x128 .bf16) (x4 : Vec F S512x1 .f32) (x5 : Vec F S1x1024 .f32) (xo6 : Vec F S512x1 .f32) (xo7 : Vec F S512x1 .f32) :
    out1_B_7 c i arg2 harg2 arg3 harg3 arg4 harg4 arg5 harg5 arg6 harg6 arg7 harg7 arg8 harg8 arg9 harg9 hc x0 x1 x2 x3 x4 x5 xo6 xo7 = k1_pay1 (k1_pay6 x0 x1 x2 x3 x4 x5) xo7 := by
  unfold out1_B_7
  rw [View.read_writes_eq_canon _ _ _ (cover1_B_7 c i arg2 harg2 arg3 harg3 arg4 harg4 arg5 harg5 arg6 harg6 arg7 harg7 arg8 harg8 arg9 harg9 hc x0 x1 x2 x3 x4 x5 xo6 xo7)]
  unfold kernelRun1_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread,
    View.ld_unit_zero (S := S512x1) hz, View.ld_unit_zero (S := S1x1024) hz, View.ld_unit_zero (S := S1024x128) hz,
    View.ld_unit_zero (S := S512x128) hz]

/-- The first point of a row block leaves the far-tile's row maxima folded into −∞: the constant it stored is what it
    reads back. -/
theorem out_A6 (c : Dev nD) (i : grid1.Coords) (arg2 : Memref sig .tc .vmem S512x1 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (hc : cond1_0 i)
    (x0 : Vec F S512x1 .i32) (x1 : Vec F S1x1024 .i32) (x2 : Vec F S512x128 .bf16) (x3 : Vec F S1024x128 .bf16) (x4 : Vec F S512x1 .f32) (x5 : Vec F S1x1024 .f32) :
    out1_A_6 c i arg2 harg2 arg3 harg3 arg4 harg4 arg5 harg5 arg6 harg6 arg7 harg7 arg8 harg8 arg9 harg9 hc x0 x1 x2 x3 x4 x5 = k1_pay7 x0 x1 x2 x3 x4 x5 (k1_pay2 (F := F)) := by
  unfold out1_A_6
  rw [View.read_writes_eq_canon _ _ _ (cover1_A_6 c i arg2 harg2 arg3 harg3 arg4 harg4 arg5 harg5 arg6 harg6 arg7 harg7 arg8 harg8 arg9 harg9 hc x0 x1 x2 x3 x4 x5)]
  unfold kernelRun1_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread,
    harg7.read_unread, harg8.read_unread, harg9.read_unread,
    View.ld_unit_zero (S := S512x1) hz, View.ld_unit_zero (S := S1x1024) hz, View.ld_unit_zero (S := S1024x128) hz,
    View.ld_unit_zero (S := S512x128) hz]

/-- … and the near-tile's row minima folded into +∞. -/
theorem out_A7 (c : Dev nD) (i : grid1.Coords) (arg2 : Memref sig .tc .vmem S512x1 .i32) (harg2 : arg2.IsWhole) (arg3 : Memref sig .tc .vmem S1x1024 .i32) (harg3 : arg3.IsWhole) (arg4 : Memref sig .tc .vmem S512x128 .bf16) (harg4 : arg4.IsWhole) (arg5 : Memref sig .tc .vmem S1024x128 .bf16) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S512x1 .f32) (harg9 : arg9.IsWhole) (hc : cond1_0 i)
    (x0 : Vec F S512x1 .i32) (x1 : Vec F S1x1024 .i32) (x2 : Vec F S512x128 .bf16) (x3 : Vec F S1024x128 .bf16) (x4 : Vec F S512x1 .f32) (x5 : Vec F S1x1024 .f32) :
    out1_A_7 c i arg2 harg2 arg3 harg3 arg4 harg4 arg5 harg5 arg6 harg6 arg7 harg7 arg8 harg8 arg9 harg9 hc x0 x1 x2 x3 x4 x5 = k1_pay1 (k1_pay6 x0 x1 x2 x3 x4 x5) (k1_pay3 (F := F)) := by
  unfold out1_A_7
  rw [View.read_writes_eq_canon _ _ _ (cover1_A_7 c i arg2 harg2 arg3 harg3 arg4 harg4 arg5 harg5 arg6 harg6 arg7 harg7 arg8 harg8 arg9 harg9 hc x0 x1 x2 x3 x4 x5)]
  unfold kernelRun1_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread,
    harg7.read_unread, harg8.read_unread, harg9.read_unread,
    View.ld_unit_zero (S := S512x1) hz, View.ld_unit_zero (S := S1x1024) hz, View.ld_unit_zero (S := S1024x128) hz,
    View.ld_unit_zero (S := S512x128) hz]

end Cert.KernelIdeal.Region1

end
-- ==== Proof.LibMinReduce.lean ====
/-
  Three readings at an index that hold for any shapes of their kind.

  A vector of length a viewed as a column [a, 1] has at (i, 0) the vector's entry i; a column [a, 1] copied along the
  rows of an [a, b] array has at (i, j) the column's entry i; and a minimum taken over one axis of an array of
  extended reals is, at each index of the result, the fold of `min`, started from the accumulator's value, over the
  entries along that axis.
-/
import Idealize.ShloMosaic.PureOps.Ideal.Laws
import Idealize.ShloMosaic.PureOps.Reduce
import Idealize.ShloMosaic.Lib.ValueIdx
import Idealize.ShloMosaic.Lib.Pipeline.Value

noncomputable section

namespace Idealize.ShloMosaic.ValueMinReduce

open Idealize.ShloMosaic Idealize.ShloMosaic.ValueIdx

section Layout
variable {α : Type}

/-- A vector of length `a` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-- A minimum-reduction of extended reals over one axis reads, at a result index, the fold of `min` from the
    accumulator's value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.ValueMinReduce

end
-- ==== Proof.Region1Payload.lean ====
/-
  The second launch's arithmetic at one grid point, read entry by entry on the extended reals.

  The body holds a block of 512 rows against a block of 1024 columns. For row `r` and column `q` of the tile,
  `tBit r q` says whether the row's identity equals the column's, and `tDist r q` is the squared distance by the
  Gram expansion, `(c2 r + x2 q) − 2 · ∑ d, c r d · x q d`. The far-tile holds the distance where the identities agree
  and −∞ elsewhere, the near-tile +∞ where they agree and the distance elsewhere. The body's two results are, row by row,
  the larger of the running maximum and the far-tile's row maximum (taken from −∞), and the smaller of the running
  minimum and the near-tile's row minimum (taken from +∞).
-/
import proofs.«104321_j75900662055339_1_alg».proof.Proof.Gen.KernelIdeal.Skeleton
import proofs.«104321_j75900662055339_1_alg».proof.Proof.Spec
import proofs.«104321_j75900662055339_1_alg».proof.Proof.LibKeepdims
import proofs.«104321_j75900662055339_1_alg».proof.Proof.LibMinReduce
import Idealize.ShloMosaic.Lib.ValueLayout

noncomputable section

open scoped BigOperators
open Idealize.ShloMosaic Idealize.ShloMosaic.ValueIdx Idealize.ShloMosaic.ValueKeepdims

namespace Cert.KernelIdeal.Region1

open Cert.KernelIdeal Cert.KernelIdeal.Gen Cert.Mine

variable (v3 : Vec Ideal S512x1 .i32) (v5 : Vec Ideal S1x1024 .i32) (v10 : Vec Ideal S512x128 .bf16)
  (v12 : Vec Ideal S1024x128 .bf16) (v15 : Vec Ideal S512x1 .f32) (v17 : Vec Ideal S1x1024 .f32)

/-- Row `r` and column `q` of the tile carry the same identity. -/
def tBit (r : Fin 512) (q : Fin 1024) : BitVec 1 := IntOp.cmpi .eq (v3 (ix2 r (0 : Fin 1))) (v5 (ix2 (0 : Fin 1) q))

/-- The squared distance from row `r`'s center to column `q`'s sample. -/
def tDist (r : Fin 512) (q : Fin 1024) : EReal :=
  (v15 (ix2 r (0 : Fin 1)) + v17 (ix2 (0 : Fin 1) q)) - two * ∑ d : Fin 128, v10 (ix2 r d) * v12 (ix2 q d)

/-- The comparison tile at an entry. -/
theorem pay4_apply (r : Fin 512) (q : Fin 1024) : k1_pay4 (F := Ideal) v3 v5 (ix2 r q) = tBit v3 v5 r q := by
  unfold k1_pay4 tBit
  show IntOp.cmpi .eq (broadcastTo S512x1024 (shapeCast S512x1 v3 _) _ (ix2 r q))
    (broadcastTo S512x1024 (shapeCast S1x1024 v5 _) _ (ix2 r q)) = _
  rw [shapeCast_self, shapeCast_self]
  exact congrArg₂ (IntOp.cmpi .eq) (broadcastTo_a1_ab_apply v3 _ r q) (broadcastTo_1b_ab_apply v5 _ r q)

/-- The operand indices of the contraction: the left operand is read at the output's row, the right operand at the
    output's column (its FIRST axis: both operands are contracted over their second axis). -/
theorem lhs_0 (i : S512x1024.Idx) (k : dot_S512x128_S1024x128_S512x1024_1_1_0_0_n_n.contr.Idx) :
    (dot_S512x128_S1024x128_S512x1024_1_1_0_0_n_n.lhsIdx i k 0).val = (i 0).val := by
  unfold DotDims.lhsIdx
  rw [dif_neg (show ¬(0 : Fin S512x128.rank) ∈ dot_S512x128_S1024x128_S512x1024_1_1_0_0_n_n.lhsBatch by decide),
    dif_pos (show (0 : Fin S512x128.rank) ∈ dot_S512x128_S1024x128_S512x1024_1_1_0_0_n_n.lhsNonContracting by decide)]
  rfl
theorem lhs_1 (i : S512x1024.Idx) (k : dot_S512x128_S1024x128_S512x1024_1_1_0_0_n_n.contr.Idx) :
    (dot_S512x128_S1024x128_S512x1024_1_1_0_0_n_n.lhsIdx i k 1).val = (k ⟨0, by decide⟩).val :=
  dot_S512x128_S1024x128_S512x1024_1_1_0_0_n_n.lhsIdx_val_of_single rfl i k
theorem rhs_0 (i : S512x1024.Idx) (k : dot_S512x128_S1024x128_S512x1024_1_1_0_0_n_n.contr.Idx) :
    (dot_S512x128_S1024x128_S512x1024_1_1_0_0_n_n.rhsIdx i k 0).val = (i 1).val := by
  unfold DotDims.rhsIdx
  rw [dif_neg (show ¬(0 : Fin S1024x128.rank) ∈ dot_S512x128_S1024x128_S512x1024_1_1_0_0_n_n.rhsBatch by decide),
    dif_pos (show (0 : Fin S1024x128.rank) ∈ dot_S512x128_S1024x128_S512x1024_1_1_0_0_n_n.rhsNonContracting by decide)]
  rfl
theorem rhs_1 (i : S512x1024.Idx) (k : dot_S512x128_S1024x128_S512x1024_1_1_0_0_n_n.contr.Idx) :
    (dot_S512x128_S1024x128_S512x1024_1_1_0_0_n_n.rhsIdx i k 1).val = (k ⟨0, by decide⟩).val :=
  dot_S512x128_S1024x128_S512x1024_1_1_0_0_n_n.rhsIdx_val_of_single rfl i k

/-- The product of the two blocks, contracted over the 128 coordinates, at an entry. -/
theorem cross_apply (r : Fin 512) (q : Fin 1024) :
    FloatOps.matmul (F := Ideal) (φ₁ := .bf16) (φ₂ := .bf16) dot_S512x128_S1024x128_S512x1024_1_1_0_0_n_n none v10 v12
        (constant S512x1024 .f32 0x00000000#32) (ix2 r q)
      = ∑ d : Fin 128, v10 (ix2 r d) * v12 (ix2 q d) := by
  refine (Ideal.matmul_constant_zero_apply (φ₁ := .bf16) (φ₂ := .bf16) dot_S512x128_S1024x128_S512x1024_1_1_0_0_n_n none
    v10 v12 (ix2 r q)).trans ?_
  rw [← Equiv.sum_comp (ValueIdx.contrEquiv1 dot_S512x128_S1024x128_S512x1024_1_1_0_0_n_n 128 rfl rfl).symm]
  refine Finset.sum_congr rfl fun k _ => ?_
  have hk := ValueIdx.contrEquiv1_symm_val dot_S512x128_S1024x128_S512x1024_1_1_0_0_n_n 128 rfl rfl k
  have el : dot_S512x128_S1024x128_S512x1024_1_1_0_0_n_n.lhsIdx (ix2 r q)
      ((ValueIdx.contrEquiv1 dot_S512x128_S1024x128_S512x1024_1_1_0_0_n_n 128 rfl rfl).symm k) = ix2 r k :=
    funext fun a => Fin.ext (by
      match a with
      | ⟨0, _⟩ => exact lhs_0 _ _
      | ⟨1, _⟩ => exact (lhs_1 _ _).trans hk)
  have er : dot_S512x128_S1024x128_S512x1024_1_1_0_0_n_n.rhsIdx (ix2 r q)
      ((ValueIdx.contrEquiv1 dot_S512x128_S1024x128_S512x1024_1_1_0_0_n_n 128 rfl rfl).symm k) = ix2 q k :=
    funext fun a => Fin.ext (by
      match a with
      | ⟨0, _⟩ => exact rhs_0 _ _
      | ⟨1, _⟩ => exact (rhs_1 _ _).trans hk)
  rw [el, er]

/-- The distance tile at an entry. -/
theorem pay5_apply (r : Fin 512) (q : Fin 1024) :
    k1_pay5 (F := Ideal) v10 v12 v15 v17 (ix2 r q) = tDist v10 v12 v15 v17 r q := by
  unfold k1_pay5 tDist
  show (broadcastTo S512x1024 (shapeCast S512x1 v15 _) _ (ix2 r q) + broadcastTo S512x1024 (shapeCast S1x1024 v17 _) _ (ix2 r q))
      - Ideal.ofBits .f32 0x40000000#32
        * FloatOps.matmul (F := Ideal) (φ₁ := .bf16) (φ₂ := .bf16) dot_S512x128_S1024x128_S512x1024_1_1_0_0_n_n none (shapeCast S512x128 v10 _)
            (shapeCast S1024x128 v12 _) (constant S512x1024 .f32 0x00000000#32) (ix2 r q) = _
  rw [shapeCast_self, shapeCast_self, shapeCast_self, shapeCast_self, cross_apply,
    broadcastTo_a1_ab_apply v15 _ r q, broadcastTo_1b_ab_apply v17 _ r q]

/-- The far-tile and the near-tile at an entry. -/
def farT (r : Fin 512) (q : Fin 1024) : EReal := Scalar.select (tBit v3 v5 r q) (tDist v10 v12 v15 v17 r q) negInf
def nearT (r : Fin 512) (q : Fin 1024) : EReal := Scalar.select (tBit v3 v5 r q) posInf (tDist v10 v12 v15 v17 r q)

/-- The near-tile is the body's `k1_pay6`. -/
theorem pay6_apply (r : Fin 512) (q : Fin 1024) :
    k1_pay6 (F := Ideal) v3 v5 v10 v12 v15 v17 (ix2 r q) = nearT v3 v5 v10 v12 v15 v17 r q := by
  unfold k1_pay6 nearT
  show Scalar.select (k1_pay4 (F := Ideal) v3 v5 (ix2 r q)) (Ideal.ofBits .f32 0x7F800000#32)
    (k1_pay5 (F := Ideal) v10 v12 v15 v17 (ix2 r q)) = _
  rw [pay4_apply, pay5_apply]

/-- The updated maxima: row `r` holds the larger of what it held and the far-tile's row maximum from −∞. -/
theorem pay7_apply (v29 : Vec Ideal S512x1 .f32) (r : Fin 512) :
    k1_pay7 (F := Ideal) v3 v5 v10 v12 v15 v17 v29 (ix2 r (0 : Fin 1))
      = max (v29 (ix2 r (0 : Fin 1)))
          ((Finset.univ : Finset (Fin 1024)).fold max negInf fun q => farT v3 v5 v10 v12 v15 v17 r q) := by
  unfold k1_pay7
  show max (shapeCast S512x1 v29 _ (ix2 r (0 : Fin 1)))
    (shapeCast S512x1 (multiReduction (F := Ideal) .maximumf [1] S512
      (select (k1_pay4 (F := Ideal) v3 v5) (k1_pay5 (F := Ideal) v10 v12 v15 v17) (broadcast S512x1024 (Ideal.ofBits .f32 0xFF800000#32)))
      0xFF800000#32 _ _ _) _ (ix2 r (0 : Fin 1))) = _
  rw [shapeCast_self, shapeCast_a_a1_apply]
  refine congrArg (max (v29 (ix2 r (0 : Fin 1))))
    ((multiReduction_maximumf_row (a := 512) (b := 1024) (φ := .f32) _ _ _ _ _ r).trans ?_)
  refine congrArg (fun f => Finset.fold max (Ideal.ofBits .f32 0xFF800000#32) f (Finset.univ : Finset (Fin 1024))) (funext fun q => ?_)
  show Scalar.select (k1_pay4 (F := Ideal) v3 v5 (ix2 r q)) (k1_pay5 (F := Ideal) v10 v12 v15 v17 (ix2 r q))
    (Ideal.ofBits .f32 0xFF800000#32) = _
  rw [pay4_apply, pay5_apply]; rfl

/-- A minimum-reduction of an `[a, b]` matrix over its second axis, at row `i`: the fold of `min`, from the
    accumulator's value, over the row's entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (i : Fin a) :
    multiReduction .minimumf [1] ⟨1, ![a]⟩ src acc h hφ hacc (ix1 i)
      = (Finset.univ : Finset (Fin b)).fold min (Ideal.ofBits φ acc) (fun k => src (ix2 i k)) := by
  rw [ValueMinReduce.multiReduction_minimumf_single]
  have hf : (src ∘ h.lift (ix1 i)) = fun k : Fin b => src (ix2 i k) :=
    funext fun k => congrArg src (lift_axis1_ix2 h i k)
  exact congrArg (fun f => Finset.fold min (Ideal.ofBits φ acc) f (Finset.univ : Finset (Fin b))) hf

/-- The updated minima: row `r` holds the smaller of what it held and the near-tile's row minimum from +∞. -/
theorem pay1_apply (v35 : Vec Ideal S512x1 .f32) (r : Fin 512) :
    k1_pay1 (F := Ideal) (k1_pay6 (F := Ideal) v3 v5 v10 v12 v15 v17) v35 (ix2 r (0 : Fin 1))
      = min (v35 (ix2 r (0 : Fin 1)))
          ((Finset.univ : Finset (Fin 1024)).fold min posInf fun q => nearT v3 v5 v10 v12 v15 v17 r q) := by
  unfold k1_pay1
  show min (shapeCast S512x1 v35 _ (ix2 r (0 : Fin 1)))
    (shapeCast S512x1 (multiReduction (F := Ideal) .minimumf [1] S512 (k1_pay6 (F := Ideal) v3 v5 v10 v12 v15 v17)
      0x7F800000#32 _ _ _) _ (ix2 r (0 : Fin 1))) = _
  rw [shapeCast_self, shapeCast_a_a1_apply]
  refine congrArg (min (v35 (ix2 r (0 : Fin 1))))
    ((multiReduction_minimumf_row (a := 512) (b := 1024) (φ := .f32) _ _ _ _ _ r).trans ?_)
  exact congrArg (fun f => Finset.fold min (Ideal.ofBits .f32 0x7F800000#32) f (Finset.univ : Finset (Fin 1024)))
    (funext fun q => pay6_apply v3 v5 v10 v12 v15 v17 r q)

/-- The two constant columns the first point of a row block stores. -/
theorem pay2_apply (y : S512x1.Idx) : k1_pay2 (F := Ideal) y = negInf := rfl
theorem pay3_apply (y : S512x1.Idx) : k1_pay3 (F := Ideal) y = posInf := rfl

end Cert.KernelIdeal.Region1

end
-- ==== Proof.LibFoldBlocks.lean ====
/-
  Maxima and minima taken block by block.

  A maximum from the least element over a finite index set that is a product of blocks — here the columns
  `Fin n` cut into `A` runs of `B` consecutive columns, `n = A · B` — is the maximum over the blocks of each block's
  own maximum; dually for a minimum from the greatest element. A running value that starts at the least element and
  at step `k` becomes the larger of itself and block `k`'s maximum holds, after step `k`, the maximum of the blocks
  `0 … k`, and after the last step the maximum over everything. Nothing here depends on what is maximised.

  On the extended reals the least and greatest elements are the words `0xFF800000` and `0x7F800000` read as floats.
-/
import Mathlib.Order.Fin.Basic
import Mathlib.Data.Finset.Lattice.Fold
import Mathlib.Data.Fintype.Prod
import Mathlib.Logic.Equiv.Fin.Basic
import Idealize.ShloMosaic.PureOps.Ideal

namespace Cert.FoldBlocks

open Finset

/-! ## The columns as blocks -/

/-- Column `b + B · a` of `n = A · B` columns is column `b` of block `a`. -/
def blockEquiv {A B n : ℕ} (h : A * B = n) : Fin A × Fin B ≃ Fin n := finProdFinEquiv.trans (finCongr h)

theorem blockEquiv_val {A B n : ℕ} (h : A * B = n) (a : Fin A) (b : Fin B) :
    (blockEquiv h (a, b)).val = b.val + B * a.val := rfl

/-! ## Folds of `max` and `min` are suprema and infima -/

section Lattice

variable {α : Type*} [LinearOrder α]

theorem fold_max_eq_sup [OrderBot α] {ι : Type*} (s : Finset ι) (f : ι → α) : s.fold max ⊥ f = s.sup f := rfl

theorem fold_min_eq_inf [OrderTop α] {ι : Type*} (s : Finset ι) (f : ι → α) : s.fold min ⊤ f = s.inf f := rfl

/-- A supremum over everything, taken block by block. -/
theorem sup_univ_blocks [OrderBot α] {ι κ γ : Type*} [Fintype ι] [Fintype κ] [Fintype γ] (e : ι × κ ≃ γ) (f : γ → α) :
    (univ : Finset γ).sup f = (univ : Finset ι).sup fun a => (univ : Finset κ).sup fun b => f (e (a, b)) := by
  rw [← Finset.map_univ_equiv e, Finset.sup_map, ← Finset.univ_product_univ, Finset.sup_product_left]
  rfl

/-- An infimum over everything, taken block by block. -/
theorem inf_univ_blocks [OrderTop α] {ι κ γ : Type*} [Fintype ι] [Fintype κ] [Fintype γ] (e : ι × κ ≃ γ) (f : γ → α) :
    (univ : Finset γ).inf f = (univ : Finset ι).inf fun a => (univ : Finset κ).inf fun b => f (e (a, b)) := by
  rw [← Finset.map_univ_equiv e, Finset.inf_map, ← Finset.univ_product_univ, Finset.inf_product_left]
  rfl

/-- The fold of `max` from the least element over everything is the fold over the blocks of each block's fold. -/
theorem fold_max_blocks [OrderBot α] {ι κ γ : Type*} [Fintype ι] [Fintype κ] [Fintype γ] (e : ι × κ ≃ γ) (f : γ → α) :
    (univ : Finset γ).fold max ⊥ f
      = (univ : Finset ι).fold max ⊥ fun a => (univ : Finset κ).fold max ⊥ fun b => f (e (a, b)) :=
  sup_univ_blocks e f

/-- The fold of `min` from the greatest element likewise. -/
theorem fold_min_blocks [OrderTop α] {ι κ γ : Type*} [Fintype ι] [Fintype κ] [Fintype γ] (e : ι × κ ≃ γ) (f : γ → α) :
    (univ : Finset γ).fold min ⊤ f
      = (univ : Finset ι).fold min ⊤ fun a => (univ : Finset κ).fold min ⊤ fun b => f (e (a, b)) :=
  inf_univ_blocks e f

/-! ## The blocks done so far -/

/-- The blocks `0 … k`. -/
def upto (A k : ℕ) : Finset (Fin A) := univ.filter fun a => a.val ≤ k

theorem upto_zero {A : ℕ} (h : 0 < A) : upto A 0 = {⟨0, h⟩} := by
  ext a; simp only [upto, mem_filter, mem_univ, true_and, mem_singleton, Fin.ext_iff]; omega

theorem upto_succ {A : ℕ} (k : ℕ) (h : k + 1 < A) : upto A (k + 1) = insert ⟨k + 1, h⟩ (upto A k) := by
  ext a; simp only [upto, mem_filter, mem_univ, true_and, mem_insert, Fin.ext_iff]; omega

theorem upto_last {A : ℕ} (k : ℕ) (h : A ≤ k + 1) : upto A k = univ := by
  ext a; simp only [upto, mem_filter, mem_univ, true_and, iff_true]; have := a.isLt; omega

/-- After the first step the running maximum, started at the least element, is block 0's. -/
theorem sup_upto_zero [OrderBot α] {A : ℕ} (h : 0 < A) (blk : Fin A → α) :
    max ⊥ (blk ⟨0, h⟩) = (upto A 0).sup blk := by
  rw [upto_zero h, Finset.sup_singleton]; exact bot_sup_eq _

/-- A further step takes in the next block. -/
theorem sup_upto_succ [OrderBot α] {A : ℕ} (k : ℕ) (h : k + 1 < A) (blk : Fin A → α) :
    max ((upto A k).sup blk) (blk ⟨k + 1, h⟩) = (upto A (k + 1)).sup blk := by
  rw [upto_succ k h, Finset.sup_insert]; exact sup_comm _ _

/-- After the first step the running minimum, started at the greatest element, is block 0's. -/
theorem inf_upto_zero [OrderTop α] {A : ℕ} (h : 0 < A) (blk : Fin A → α) :
    min ⊤ (blk ⟨0, h⟩) = (upto A 0).inf blk := by
  rw [upto_zero h, Finset.inf_singleton]; exact top_inf_eq _

/-- A further step takes in the next block. -/
theorem inf_upto_succ [OrderTop α] {A : ℕ} (k : ℕ) (h : k + 1 < A) (blk : Fin A → α) :
    min ((upto A k).inf blk) (blk ⟨k + 1, h⟩) = (upto A (k + 1)).inf blk := by
  rw [upto_succ k h, Finset.inf_insert]; exact inf_comm _ _

/-- After the last step the running maximum of the blocks' maxima is the maximum over all `n = A · B` columns. -/
theorem sup_upto_last_blocks [OrderBot α] {A B n : ℕ} (hn : A * B = n) (k : ℕ) (h : A ≤ k + 1) (f : Fin n → α) :
    (upto A k).sup (fun a => (univ : Finset (Fin B)).fold max ⊥ fun b => f (blockEquiv hn (a, b)))
      = (univ : Finset (Fin n)).fold max ⊥ f := by
  rw [upto_last k h]; exact (fold_max_blocks (blockEquiv hn) f).symm

/-- … and the running minimum of the blocks' minima the minimum over all columns. -/
theorem inf_upto_last_blocks [OrderTop α] {A B n : ℕ} (hn : A * B = n) (k : ℕ) (h : A ≤ k + 1) (f : Fin n → α) :
    (upto A k).inf (fun a => (univ : Finset (Fin B)).fold min ⊤ fun b => f (blockEquiv hn (a, b)))
      = (univ : Finset (Fin n)).fold min ⊤ f := by
  rw [upto_last k h]; exact (fold_min_blocks (blockEquiv hn) f).symm

end Lattice

/-! ## The two infinities as floats -/

open Idealize.ShloMosaic

theorem negInf_eq_bot : Ideal.ofBits .f32 0xFF800000#32 = (⊥ : EReal) := by simp [Ideal.ofBits, Ideal.ieee]

theorem posInf_eq_top : Ideal.ofBits .f32 0x7F800000#32 = (⊤ : EReal) := by simp [Ideal.ofBits, Ideal.ieee]

end Cert.FoldBlocks
-- ==== Proof.Region1Value.lean ====
/-
  The second launch read whole: after the eight column blocks of a row block its two output blocks hold, row by row,
  the largest distance to a sample of the row's own identity and the smallest distance to a sample of another, and the
  launch leaves `farK` and `nearK` of its six operand arrays.

  Point `t = 8·i + j` of the 16 × 8 grid works on row block `i` (rows `512·i … 512·i + 511`) and column block `j`
  (columns `1024·j … 1024·j + 1023`). Its six input blocks are those rows of the identities' column, of the centers and
  of the centers' squared norms, and those columns of the identities' row, of the samples and of the samples' squared
  norms. After it the block of maxima holds, at row `p`, the maximum over the column blocks `s ≤ j` of block `s`'s
  own maximum of the masked distances of row `512·i + p` — by induction on the point: the first column block starts
  from the −∞ it stored, every later one folds its block's maximum into what the point before left. At `j = 7` that is
  the maximum over all eight blocks, which is the maximum over all 8192 columns; the block is written back there, and
  the sixteen row blocks tile the array. The block of minima likewise, from +∞.
-/
import proofs.«104321_j75900662055339_1_alg».proof.Proof.Gen.KernelIdeal.Frame
import proofs.«104321_j75900662055339_1_alg».proof.Proof.Region1Pieces
import proofs.«104321_j75900662055339_1_alg».proof.Proof.Region1Payload
import proofs.«104321_j75900662055339_1_alg».proof.Proof.LibFoldBlocks
import proofs.«104321_j75900662055339_1_alg».proof.Proof.Spec
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Mine Cert.FoldBlocks

variable (V : (c : Dev nD) → (b : Ref sig .tc) → Buf (Elt Ideal) ((c : Thread nD τ).loc b))

/-! ## The windows' index maps over the grid, and the input blocks read at coordinates -/

theorem idx0 : ∀ t : Fin cfg1.N, win1_0.index t (0 : Fin 2) = t.val / 8 ∧ win1_0.index t (1 : Fin 2) = 0 :=
  (by decide +kernel : ∀ t : Fin grid1.N, win1_0.index t (0 : Fin 2) = t.val / 8 ∧ win1_0.index t (1 : Fin 2) = 0)
theorem idx1 : ∀ t : Fin cfg1.N, win1_1.index t (0 : Fin 2) = 0 ∧ win1_1.index t (1 : Fin 2) = t.val % 8 :=
  (by decide +kernel : ∀ t : Fin grid1.N, win1_1.index t (0 : Fin 2) = 0 ∧ win1_1.index t (1 : Fin 2) = t.val % 8)
theorem idx2 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)
theorem idx3 : ∀ t : Fin cfg1.N, win1_3.index t (0 : Fin 2) = t.val % 8 ∧ win1_3.index t (1 : Fin 2) = 0 :=
  (by decide +kernel : ∀ t : Fin grid1.N, win1_3.index t (0 : Fin 2) = t.val % 8 ∧ win1_3.index t (1 : Fin 2) = 0)
theorem idx4 : ∀ t : Fin cfg1.N, win1_4.index t (0 : Fin 2) = t.val / 8 ∧ win1_4.index t (1 : Fin 2) = 0 :=
  (by decide +kernel : ∀ t : Fin grid1.N, win1_4.index t (0 : Fin 2) = t.val / 8 ∧ win1_4.index t (1 : Fin 2) = 0)
theorem idx5 : ∀ t : Fin cfg1.N, win1_5.index t (0 : Fin 2) = 0 ∧ win1_5.index t (1 : Fin 2) = t.val % 8 :=
  (by decide +kernel : ∀ t : Fin grid1.N, win1_5.index t (0 : Fin 2) = 0 ∧ win1_5.index t (1 : Fin 2) = t.val % 8)
theorem idx6 : ∀ t : Fin cfg1.N, win1_6.index t (0 : Fin 2) = t.val / 8 ∧ win1_6.index t (1 : Fin 2) = 0 :=
  (by decide +kernel : ∀ t : Fin grid1.N, win1_6.index t (0 : Fin 2) = t.val / 8 ∧ win1_6.index t (1 : Fin 2) = 0)
theorem idx7 : ∀ t : Fin cfg1.N, win1_7.index t (0 : Fin 2) = t.val / 8 ∧ win1_7.index t (1 : Fin 2) = 0 :=
  (by decide +kernel : ∀ t : Fin grid1.N, win1_7.index t (0 : Fin 2) = t.val / 8 ∧ win1_7.index t (1 : Fin 2) = 0)

theorem blk0_at (c : Dev nD) (t : Fin cfg1.N) (p : Fin 512) (u : Fin 1) (r : Fin 8192) (hr : r.val = 512 * (t.val / 8) + p.val) :
    (iblk1 (F := Ideal) V c 0 t : Vec Ideal S512x1 .i32) (ix2 p u) = V c main_v0 (ix2 r (0 : Fin 1)) := by
  unfold iblk1
  rw [View.read_apply]
  show V c main_v0 (((cfg1.win 0).blk t).view.emb (ix2 p u)) = V c main_v0 (ix2 r (0 : Fin 1))
  refine congrArg (V c main_v0) (funext fun a => Fin.ext ?_)
  match a with
  | ⟨0, _⟩ => show win1_0.index t 0 * 512 + 1 * p.val = r.val; rw [(idx0 t).1, hr]; omega
  | ⟨1, _⟩ => show win1_0.index t 1 * 1 + 1 * u.val = 0; rw [(idx0 t).2]; omega

theorem blk1_at (c : Dev nD) (t : Fin cfg1.N) (u : Fin 1) (k : Fin 1024) (j : Fin 8192) (hj : j.val = k.val + 1024 * (t.val % 8)) :
    (iblk1 (F := Ideal) V c 1 t : Vec Ideal S1x1024 .i32) (ix2 u k) = V c main_v1 (ix2 (0 : Fin 1) j) := by
  unfold iblk1
  rw [View.read_apply]
  show V c main_v1 (((cfg1.win 1).blk t).view.emb (ix2 u k)) = V c main_v1 (ix2 (0 : Fin 1) j)
  refine congrArg (V c main_v1) (funext fun a => Fin.ext ?_)
  match a with
  | ⟨0, _⟩ => show win1_1.index t 0 * 1 + 1 * u.val = 0; rw [(idx1 t).1]; omega
  | ⟨1, _⟩ => show win1_1.index t 1 * 1024 + 1 * k.val = j.val; rw [(idx1 t).2, hj]; omega

theorem blk2_at (c : Dev nD) (t : Fin cfg1.N) (p : Fin 512) (d : Fin 128) (r : Fin 8192) (hr : r.val = 512 * (t.val / 8) + p.val) :
    (iblk1 (F := Ideal) V c 2 t : Vec Ideal S512x128 .bf16) (ix2 p d) = V c main_v13 (ix2 r d) := by
  unfold iblk1
  rw [View.read_apply]
  show V c main_v13 (((cfg1.win 2).blk t).view.emb (ix2 p d)) = V c main_v13 (ix2 r d)
  refine congrArg (V c main_v13) (funext fun a => Fin.ext ?_)
  match a with
  | ⟨0, _⟩ => show win1_2.index t 0 * 512 + 1 * p.val = r.val; rw [(idx2 t).1, hr]; omega
  | ⟨1, _⟩ => show win1_2.index t 1 * 128 + 1 * d.val = d.val; rw [(idx2 t).2]; omega

theorem blk3_at (c : Dev nD) (t : Fin cfg1.N) (k : Fin 1024) (d : Fin 128) (j : Fin 8192) (hj : j.val = k.val + 1024 * (t.val % 8)) :
    (iblk1 (F := Ideal) V c 3 t : Vec Ideal S1024x128 .bf16) (ix2 k d) = V c main_v2 (ix2 j d) := by
  unfold iblk1
  rw [View.read_apply]
  show V c main_v2 (((cfg1.win 3).blk t).view.emb (ix2 k d)) = V c main_v2 (ix2 j d)
  refine congrArg (V c main_v2) (funext fun a => Fin.ext ?_)
  match a with
  | ⟨0, _⟩ => show win1_3.index t 0 * 1024 + 1 * k.val = j.val; rw [(idx3 t).1, hj]; omega
  | ⟨1, _⟩ => show win1_3.index t 1 * 128 + 1 * d.val = d.val; rw [(idx3 t).2]; omega

theorem blk4_at (c : Dev nD) (t : Fin cfg1.N) (p : Fin 512) (u : Fin 1) (r : Fin 8192) (hr : r.val = 512 * (t.val / 8) + p.val) :
    (iblk1 (F := Ideal) V c 4 t : Vec Ideal S512x1 .f32) (ix2 p u) = V c main_v12 (ix2 r (0 : Fin 1)) := by
  unfold iblk1
  rw [View.read_apply]
  show V c main_v12 (((cfg1.win 4).blk t).view.emb (ix2 p u)) = V c main_v12 (ix2 r (0 : Fin 1))
  refine congrArg (V c main_v12) (funext fun a => Fin.ext ?_)
  match a with
  | ⟨0, _⟩ => show win1_4.index t 0 * 512 + 1 * p.val = r.val; rw [(idx4 t).1, hr]; omega
  | ⟨1, _⟩ => show win1_4.index t 1 * 1 + 1 * u.val = 0; rw [(idx4 t).2]; omega

theorem blk5_at (c : Dev nD) (t : Fin cfg1.N) (u : Fin 1) (k : Fin 1024) (j : Fin 8192) (hj : j.val = k.val + 1024 * (t.val % 8)) :
    (iblk1 (F := Ideal) V c 5 t : Vec Ideal S1x1024 .f32) (ix2 u k) = V c main_v6 (ix2 (0 : Fin 1) j) := by
  unfold iblk1
  rw [View.read_apply]
  show V c main_v6 (((cfg1.win 5).blk t).view.emb (ix2 u k)) = V c main_v6 (ix2 (0 : Fin 1) j)
  refine congrArg (V c main_v6) (funext fun a => Fin.ext ?_)
  match a with
  | ⟨0, _⟩ => show win1_5.index t 0 * 1 + 1 * u.val = 0; rw [(idx5 t).1]; omega
  | ⟨1, _⟩ => show win1_5.index t 1 * 1024 + 1 * k.val = j.val; rw [(idx5 t).2, hj]; omega

/-! ## The masked distances of a row, and their column blocks -/

section Blocks

variable (tc : SC.Idx → BitVec 32) (tr : SR.Idx → BitVec 32) (cb xb : SX.Idx → EReal) (c2 : SC.Idx → EReal) (x2 : SR.Idx → EReal)

/-- The distance from center `i` to sample `j` where they share an identity and −∞ elsewhere; +∞ where they share one
    and the distance elsewhere. -/
def farG (i j : Fin 8192) : EReal := Scalar.select (bitK tc tr i j) (distK cb xb c2 x2 i j) negInf
def nearG (i j : Fin 8192) : EReal := Scalar.select (bitK tc tr i j) posInf (distK cb xb c2 x2 i j)

theorem farK_eq (y : SC.Idx) : farK tc tr cb xb c2 x2 y = (Finset.univ : Finset (Fin 8192)).fold max negInf (farG tc tr cb xb c2 x2 (y 0)) := rfl
theorem nearK_eq (y : SC.Idx) : nearK tc tr cb xb c2 x2 y = (Finset.univ : Finset (Fin 8192)).fold min posInf (nearG tc tr cb xb c2 x2 (y 0)) := rfl

/-- Column `k` of column block `s`. -/
def col (s : Fin 8) (k : Fin 1024) : Fin 8192 := blockEquiv (show 8 * 1024 = 8192 from rfl) (s, k)

theorem col_val (s : Fin 8) (k : Fin 1024) : (col s k).val = k.val + 1024 * s.val := rfl

/-- Column block `s`'s own maximum, and minimum, of row `i`'s masked distances. -/
def farBlk (i : Fin 8192) (s : Fin 8) : EReal := (Finset.univ : Finset (Fin 1024)).fold max ⊥ fun k => farG tc tr cb xb c2 x2 i (col s k)
def nearBlk (i : Fin 8192) (s : Fin 8) : EReal := (Finset.univ : Finset (Fin 1024)).fold min ⊤ fun k => nearG tc tr cb xb c2 x2 i (col s k)

/-- All eight blocks' maxima make the maximum over all 8192 columns; the minima likewise. -/
theorem far_all (i : Fin 8192) (n : ℕ) (h : 8 ≤ n + 1) :
    (upto 8 n).sup (farBlk tc tr cb xb c2 x2 i) = (Finset.univ : Finset (Fin 8192)).fold max negInf (farG tc tr cb xb c2 x2 i) :=
  (sup_upto_last_blocks (show 8 * 1024 = 8192 from rfl) n h (farG tc tr cb xb c2 x2 i)).trans
    (congrArg (fun b => Finset.fold max b (farG tc tr cb xb c2 x2 i) Finset.univ) negInf_eq_bot.symm)
theorem near_all (i : Fin 8192) (n : ℕ) (h : 8 ≤ n + 1) :
    (upto 8 n).inf (nearBlk tc tr cb xb c2 x2 i) = (Finset.univ : Finset (Fin 8192)).fold min posInf (nearG tc tr cb xb c2 x2 i) :=
  (inf_upto_last_blocks (show 8 * 1024 = 8192 from rfl) n h (nearG tc tr cb xb c2 x2 i)).trans
    (congrArg (fun b => Finset.fold min b (nearG tc tr cb xb c2 x2 i) Finset.univ) posInf_eq_top.symm)

end Blocks

/-! ## One point's step, read at a row -/

/-- At a point the tile's entry `(p, k)` is the masked distance of row `512·i + p` at column `1024·j + k`. -/
theorem farT_at (c : Dev nD) (t : Fin cfg1.N) (p : Fin 512) (k : Fin 1024) (r : Fin 8192) (hr : r.val = 512 * (t.val / 8) + p.val)
    (s : Fin 8) (hs : s.val = t.val % 8) :
    farT (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) p k = farG (V c main_v0) (V c main_v1) (V c main_v13) (V c main_v2) (V c main_v12) (V c main_v6) r (col s k) := by
  have hj : (col s k).val = k.val + 1024 * (t.val % 8) := by rw [col_val, hs]
  unfold farT farG tBit tDist bitK distK
  rw [blk0_at V c t p (0 : Fin 1) r hr, blk1_at V c t (0 : Fin 1) k (col s k) hj, blk4_at V c t p (0 : Fin 1) r hr,
    blk5_at V c t (0 : Fin 1) k (col s k) hj]
  refine congrArg (fun z => Scalar.select _ ((_ + _) - two * z) negInf) (Finset.sum_congr rfl fun d _ => ?_)
  rw [blk2_at V c t p d r hr, blk3_at V c t k d (col s k) hj]

theorem nearT_at (c : Dev nD) (t : Fin cfg1.N) (p : Fin 512) (k : Fin 1024) (r : Fin 8192) (hr : r.val = 512 * (t.val / 8) + p.val)
    (s : Fin 8) (hs : s.val = t.val % 8) :
    nearT (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) p k = nearG (V c main_v0) (V c main_v1) (V c main_v13) (V c main_v2) (V c main_v12) (V c main_v6) r (col s k) := by
  have hj : (col s k).val = k.val + 1024 * (t.val % 8) := by rw [col_val, hs]
  unfold nearT nearG tBit tDist bitK distK
  rw [blk0_at V c t p (0 : Fin 1) r hr, blk1_at V c t (0 : Fin 1) k (col s k) hj, blk4_at V c t p (0 : Fin 1) r hr,
    blk5_at V c t (0 : Fin 1) k (col s k) hj]
  refine congrArg (fun z => Scalar.select _ posInf ((_ + _) - two * z)) (Finset.sum_congr rfl fun d _ => ?_)
  rw [blk2_at V c t p d r hr, blk3_at V c t k d (col s k) hj]

/-- The maxima's payload at a point, at row `p`: the larger of what the block held there and the point's column block's
    maximum. -/
theorem far_step (c : Dev nD) (t : Fin cfg1.N) (acc : Vec Ideal S512x1 .f32) (p : Fin 512) (u : Fin 1) (r : Fin 8192) (hr : r.val = 512 * (t.val / 8) + p.val)
    (s : Fin 8) (hs : s.val = t.val % 8) :
    k1_pay7 (F := Ideal) (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) acc (ix2 p u)
      = max (acc (ix2 p u)) (farBlk (V c main_v0) (V c main_v1) (V c main_v13) (V c main_v2) (V c main_v12) (V c main_v6) r s) := by
  obtain rfl : u = 0 := Subsingleton.elim _ _
  refine (pay7_apply (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) acc p).trans ?_
  refine congrArg (max (acc (ix2 p (0 : Fin 1)))) ?_
  refine (congrArg (fun b => Finset.fold max b _ Finset.univ) negInf_eq_bot).trans ?_
  exact congrArg (fun f => Finset.fold max ⊥ f (Finset.univ : Finset (Fin 1024))) (funext fun k => farT_at V c t p k r hr s hs)

/-- The minima's payload at a point, at row `p`. -/
theorem near_step (c : Dev nD) (t : Fin cfg1.N) (acc : Vec Ideal S512x1 .f32) (p : Fin 512) (u : Fin 1) (r : Fin 8192) (hr : r.val = 512 * (t.val / 8) + p.val)
    (s : Fin 8) (hs : s.val = t.val % 8) :
    k1_pay1 (F := Ideal) (k1_pay6 (F := Ideal) (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t)) acc (ix2 p u)
      = min (acc (ix2 p u)) (nearBlk (V c main_v0) (V c main_v1) (V c main_v13) (V c main_v2) (V c main_v12) (V c main_v6) r s) := by
  obtain rfl : u = 0 := Subsingleton.elim _ _
  refine (pay1_apply (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) acc p).trans ?_
  refine congrArg (min (acc (ix2 p (0 : Fin 1)))) ?_
  refine (congrArg (fun b => Finset.fold min b _ Finset.univ) posInf_eq_top).trans ?_
  exact congrArg (fun f => Finset.fold min ⊤ f (Finset.univ : Finset (Fin 1024))) (funext fun k => nearT_at V c t p k r hr s hs)

/-- What the two output blocks hold after a first point of a row block, and after a later point. -/
theorem at_first (c : Dev nD) (t : Fin cfg1.N) (h0 : t.val % 8 = 0) :
    (outsAt1 (F := Ideal) V c t.val t.isLt).1 = k1_pay7 (iblk1 V c 0 t) (iblk1 V c 1 t) (iblk1 V c 2 t) (iblk1 V c 3 t) (iblk1 V c 4 t) (iblk1 V c 5 t) (k1_pay2 (F := Ideal))
    ∧ (outsAt1 (F := Ideal) V c t.val t.isLt).2 = k1_pay1 (k1_pay6 (iblk1 V c 0 t) (iblk1 V c 1 t) (iblk1 V c 2 t) (iblk1 V c 3 t) (iblk1 V c 4 t) (iblk1 V c 5 t)) (k1_pay3 (F := Ideal)) := by
  rw [outsAt1_A (F := Ideal) V c t h0]
  dsimp only
  rw [out_A6, out_A7]
  exact ⟨rfl, rfl⟩

theorem at_later (c : Dev nD) (n : ℕ) (hn : n + 1 < cfg1.N) (h0 : ¬(n + 1) % 8 = 0) :
    (outsAt1 (F := Ideal) V c (n + 1) hn).1 = k1_pay7 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)
        (outsAt1 (F := Ideal) V c n (Nat.lt_of_succ_lt hn)).1
    ∧ (outsAt1 (F := Ideal) V c (n + 1) hn).2 = k1_pay1 (k1_pay6 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
        (outsAt1 (F := Ideal) V c n (Nat.lt_of_succ_lt hn)).2 := by
  have h := outsAt1_B (F := Ideal) V c ⟨n + 1, hn⟩ h0
  dsimp only at h
  rw [h]
  dsimp only
  rw [out_B6, out_B7]
  exact ⟨rfl, rfl⟩

/-! ## The invariant: after point `n` the blocks hold the extrema over the column blocks done so far -/

theorem inv (c : Dev nD) : ∀ (n : ℕ) (hn : n < cfg1.N) (p : Fin 512) (u : Fin 1) (r : Fin 8192) (hr : r.val = 512 * (n / 8) + p.val),
    (outsAt1 (F := Ideal) V c n hn).1 (ix2 p u) = (upto 8 (n % 8)).sup (farBlk (V c main_v0) (V c main_v1) (V c main_v13) (V c main_v2) (V c main_v12) (V c main_v6) r)
    ∧ (outsAt1 (F := Ideal) V c n hn).2 (ix2 p u) = (upto 8 (n % 8)).inf (nearBlk (V c main_v0) (V c main_v1) (V c main_v13) (V c main_v2) (V c main_v12) (V c main_v6) r)
  | 0, hn, p, u, r, hr => by
    obtain ⟨e1, e2⟩ := at_first V c ⟨0, hn⟩ rfl
    constructor
    · refine (congrFun e1 (ix2 p u)).trans ((far_step V c ⟨0, hn⟩ _ p u r hr ⟨0, by norm_num⟩ rfl).trans ?_)
      refine (congrArg (fun b => max b _) (negInf_eq_bot : k1_pay2 (F := Ideal) (ix2 p u) = ⊥)).trans ?_
      exact sup_upto_zero (by norm_num) _
    · refine (congrFun e2 (ix2 p u)).trans ((near_step V c ⟨0, hn⟩ _ p u r hr ⟨0, by norm_num⟩ rfl).trans ?_)
      refine (congrArg (fun b => min b _) (posInf_eq_top : k1_pay3 (F := Ideal) (ix2 p u) = ⊤)).trans ?_
      exact inf_upto_zero (by norm_num) _
  | n + 1, hn, p, u, r, hr => by
    have hN : n + 1 < 128 := lt_of_lt_of_eq hn N_1
    by_cases h0 : (n + 1) % 8 = 0
    · obtain ⟨e1, e2⟩ := at_first V c ⟨n + 1, hn⟩ h0
      rw [h0]
      constructor
      · refine (congrFun e1 (ix2 p u)).trans ((far_step V c ⟨n + 1, hn⟩ _ p u r hr ⟨0, by norm_num⟩ h0.symm).trans ?_)
        refine (congrArg (fun b => max b _) (negInf_eq_bot : k1_pay2 (F := Ideal) (ix2 p u) = ⊥)).trans ?_
        exact sup_upto_zero (by norm_num) _
      · refine (congrFun e2 (ix2 p u)).trans ((near_step V c ⟨n + 1, hn⟩ _ p u r hr ⟨0, by norm_num⟩ h0.symm).trans ?_)
        refine (congrArg (fun b => min b _) (posInf_eq_top : k1_pay3 (F := Ideal) (ix2 p u) = ⊤)).trans ?_
        exact inf_upto_zero (by norm_num) _
    · obtain ⟨e1, e2⟩ := at_later V c n hn h0
      have hr' : r.val = 512 * (n / 8) + p.val := by rw [hr]; omega
      obtain ⟨i1, i2⟩ := inv c n (Nat.lt_of_succ_lt hn) p u r hr'
      have hk : n % 8 + 1 < 8 := by omega
      have hm : (n + 1) % 8 = n % 8 + 1 := by omega
      rw [hm]
      constructor
      · refine (congrFun e1 (ix2 p u)).trans ((far_step V c ⟨n + 1, hn⟩ _ p u r hr ⟨n % 8 + 1, hk⟩ hm.symm).trans ?_)
        rw [i1]
        exact sup_upto_succ (n % 8) hk _
      · refine (congrFun e2 (ix2 p u)).trans ((near_step V c ⟨n + 1, hn⟩ _ p u r hr ⟨n % 8 + 1, hk⟩ hm.symm).trans ?_)
        rw [i2]
        exact inf_upto_succ (n % 8) hk _

end Cert.KernelIdeal.Region1

end
-- ==== Proof.Region1Final.lean ====
/-
  The second launch's two result arrays.

  After the last column block of a row block the block of maxima holds, at row `p`, the maximum over all eight column
  blocks of each block's own maximum of row `512·i + p`'s masked distances, which is the maximum over all 8192 columns:
  that row of `farK` (`block_done`); the block of minima holds that row of `nearK`. The block written back there is
  that row block of the result (`flushed6`, `flushed7`), and the sixteen row blocks cover the arrays (`cover6`,
  `cover7`): the launch leaves `farK` and `nearK` of its operand arrays.
-/
import proofs.«104321_j75900662055339_1_alg».proof.Proof.Gen.KernelIdeal.Frame
import proofs.«104321_j75900662055339_1_alg».proof.Proof.Region1Value
import proofs.«104321_j75900662055339_1_alg».proof.Proof.LibFoldBlocks
import proofs.«104321_j75900662055339_1_alg».proof.Proof.Spec
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Mine Cert.FoldBlocks

variable (V : (c : Dev nD) → (b : Ref sig .tc) → Buf (Elt Ideal) ((c : Thread nD τ).loc b))

/-- After the last column block of a row block the two output blocks hold that row block of `farK` and `nearK`. -/
theorem block_done (c : Dev nD) (t : Fin cfg1.N) (h7 : t.val % 8 = 7) (p : Fin 512) (u : Fin 1) (r : Fin 8192)
    (hr : r.val = 512 * (t.val / 8) + p.val) :
    (outsAt1 (F := Ideal) V c t.val t.isLt).1 (ix2 p u) = farK (V c main_v0) (V c main_v1) (V c main_v13) (V c main_v2) (V c main_v12) (V c main_v6) (ix2 r u)
    ∧ (outsAt1 (F := Ideal) V c t.val t.isLt).2 (ix2 p u) = nearK (V c main_v0) (V c main_v1) (V c main_v13) (V c main_v2) (V c main_v12) (V c main_v6) (ix2 r u) := by
  obtain ⟨h6, h7'⟩ := inv V c t.val t.isLt p u r hr
  refine ⟨h6.trans ?_, h7'.trans ?_⟩
  · rw [h7]
    exact far_all _ _ _ _ _ _ r 7 le_rfl
  · rw [h7]
    exact near_all _ _ _ _ _ _ r 7 le_rfl

/-! ## The write-back, the cover, and the arrays the launch leaves -/

theorem idxo6 : ∀ t : Fin cfg1.N, win1_6.index t (0 : Fin 2) = t.val / 8 ∧ win1_6.index t (1 : Fin 2) = 0
    ∧ win1_6.xsize (grid1.coords t) (0 : Fin 2) = 512 ∧ win1_6.xsize (grid1.coords t) (1 : Fin 2) = 1 :=
  (by decide +kernel : ∀ t : Fin grid1.N, win1_6.index t (0 : Fin 2) = t.val / 8 ∧ win1_6.index t (1 : Fin 2) = 0
    ∧ win1_6.xsize (grid1.coords t) (0 : Fin 2) = 512 ∧ win1_6.xsize (grid1.coords t) (1 : Fin 2) = 1)
theorem idxo7 : ∀ t : Fin cfg1.N, win1_7.index t (0 : Fin 2) = t.val / 8 ∧ win1_7.index t (1 : Fin 2) = 0
    ∧ win1_7.xsize (grid1.coords t) (0 : Fin 2) = 512 ∧ win1_7.xsize (grid1.coords t) (1 : Fin 2) = 1 :=
  (by decide +kernel : ∀ t : Fin grid1.N, win1_7.index t (0 : Fin 2) = t.val / 8 ∧ win1_7.index t (1 : Fin 2) = 0
    ∧ win1_7.xsize (grid1.coords t) (0 : Fin 2) = 512 ∧ win1_7.xsize (grid1.coords t) (1 : Fin 2) = 1)

/-- The block written back after the last column block of a row block is that row block of `farK`. -/
theorem flushed6 (c : Dev nD) (t : Fin cfg1.N) (hf : (cfg1.win 6).flush t = true) :
    (dat1 (F := Ideal) V c).flushed 6 t
      = ((cfg1.win 6).blk t).view.read (Elt Ideal) (farK (V c main_v0) (V c main_v1) (V c main_v13) (V c main_v2) (V c main_v12) (V c main_v6)) := by
  have h7 : t.val % 8 = 7 := (flush1_6 t).mp hf
  have hN : t.val < 128 := lt_of_lt_of_eq t.isLt (show cfg1.N = 128 from N_1)
  show (cfg1.win 6).cut (grid1.coords t) ((dat1 (F := Ideal) V c).after 6 t) = _
  rw [after1_6]
  funext y
  rw [View.read_apply]
  show (outsAt1 (F := Ideal) V c t.val t.isLt).1 y
    = farK (V c main_v0) (V c main_v1) (V c main_v13) (V c main_v2) (V c main_v12) (V c main_v6) (((cfg1.win 6).blk t).view.emb y)
  obtain ⟨p, u, rfl⟩ : ∃ (p : Fin 512) (u : Fin 1), y = ix2 p u := ⟨y 0, y 1, eq_ix2 y⟩
  have hemb : ((cfg1.win 6).blk t).view.emb (ix2 p u) = ix2 (⟨512 * (t.val / 8) + p.val, by omega⟩ : Fin 8192) u :=
    funext fun a => Fin.ext (by
      match a with
      | ⟨0, _⟩ => show win1_6.index t 0 * 512 + 1 * p.val = 512 * (t.val / 8) + p.val; rw [(idxo6 t).1]; omega
      | ⟨1, _⟩ => show win1_6.index t 1 * 1 + 1 * u.val = u.val; rw [(idxo6 t).2.1]; omega)
  rw [hemb]
  exact (block_done V c t h7 p u _ rfl).1

/-- … and of `nearK`. -/
theorem flushed7 (c : Dev nD) (t : Fin cfg1.N) (hf : (cfg1.win 7).flush t = true) :
    (dat1 (F := Ideal) V c).flushed 7 t
      = ((cfg1.win 7).blk t).view.read (Elt Ideal) (nearK (V c main_v0) (V c main_v1) (V c main_v13) (V c main_v2) (V c main_v12) (V c main_v6)) := by
  have h7 : t.val % 8 = 7 := (flush1_7 t).mp hf
  have hN : t.val < 128 := lt_of_lt_of_eq t.isLt (show cfg1.N = 128 from N_1)
  show (cfg1.win 7).cut (grid1.coords t) ((dat1 (F := Ideal) V c).after 7 t) = _
  rw [after1_7]
  funext y
  rw [View.read_apply]
  show (outsAt1 (F := Ideal) V c t.val t.isLt).2 y
    = nearK (V c main_v0) (V c main_v1) (V c main_v13) (V c main_v2) (V c main_v12) (V c main_v6) (((cfg1.win 7).blk t).view.emb y)
  obtain ⟨p, u, rfl⟩ : ∃ (p : Fin 512) (u : Fin 1), y = ix2 p u := ⟨y 0, y 1, eq_ix2 y⟩
  have hemb : ((cfg1.win 7).blk t).view.emb (ix2 p u) = ix2 (⟨512 * (t.val / 8) + p.val, by omega⟩ : Fin 8192) u :=
    funext fun a => Fin.ext (by
      match a with
      | ⟨0, _⟩ => show win1_7.index t 0 * 512 + 1 * p.val = 512 * (t.val / 8) + p.val; rw [(idxo7 t).1]; omega
      | ⟨1, _⟩ => show win1_7.index t 1 * 1 + 1 * u.val = u.val; rw [(idxo7 t).2.1]; omega)
  rw [hemb]
  exact (block_done V c t h7 p u _ rfl).2

/-- Row `i 0` lies in the block of row block `(i 0) / 512`, whatever the column block. -/
theorem mem_blk6 (i : S8192x1.Idx) (t : Fin cfg1.N) (ht : t.val / 8 = (i 0).val / 512) : i ∈ ((cfg1.win 6).blk t).view.set := by
  have h0 : (i 0 : ℕ) < 8192 := (i 0).isLt
  have h1 : (i 1 : ℕ) < 1 := (i 1).isLt
  show i ∈ ((View.whole main_v14_0).slice (win1_6.rect t)).set
  rw [View.set_slice_whole, Rect.mem_set_unit]
  intro a
  match a with
  | ⟨0, _⟩ =>
    show win1_6.index t 0 * win1_6.size 0 ≤ (i 0 : ℕ) ∧ (i 0 : ℕ) < win1_6.index t 0 * win1_6.size 0 + win1_6.xsize (grid1.coords t) 0
    rw [(idxo6 t).1, (idxo6 t).2.2.1, ht]
    show (i 0).val / 512 * 512 ≤ (i 0 : ℕ) ∧ (i 0 : ℕ) < (i 0).val / 512 * 512 + 512
    omega
  | ⟨1, _⟩ =>
    show win1_6.index t 1 * win1_6.size 1 ≤ (i 1 : ℕ) ∧ (i 1 : ℕ) < win1_6.index t 1 * win1_6.size 1 + win1_6.xsize (grid1.coords t) 1
    rw [(idxo6 t).2.1, (idxo6 t).2.2.2]
    omega

theorem mem_blk7 (i : S8192x1.Idx) (t : Fin cfg1.N) (ht : t.val / 8 = (i 0).val / 512) : i ∈ ((cfg1.win 7).blk t).view.set := by
  have h0 : (i 0 : ℕ) < 8192 := (i 0).isLt
  have h1 : (i 1 : ℕ) < 1 := (i 1).isLt
  show i ∈ ((View.whole main_v14_1).slice (win1_7.rect t)).set
  rw [View.set_slice_whole, Rect.mem_set_unit]
  intro a
  match a with
  | ⟨0, _⟩ =>
    show win1_7.index t 0 * win1_7.size 0 ≤ (i 0 : ℕ) ∧ (i 0 : ℕ) < win1_7.index t 0 * win1_7.size 0 + win1_7.xsize (grid1.coords t) 0
    rw [(idxo7 t).1, (idxo7 t).2.2.1, ht]
    show (i 0).val / 512 * 512 ≤ (i 0 : ℕ) ∧ (i 0 : ℕ) < (i 0).val / 512 * 512 + 512
    omega
  | ⟨1, _⟩ =>
    show win1_7.index t 1 * win1_7.size 1 ≤ (i 1 : ℕ) ∧ (i 1 : ℕ) < win1_7.index t 1 * win1_7.size 1 + win1_7.xsize (grid1.coords t) 1
    rw [(idxo7 t).2.1, (idxo7 t).2.2.2]
    omega

/-- Every entry of the two result arrays lies in the block written back at the last column block of its row block. -/
theorem cover6 (i : S8192x1.Idx) : ∃ t : Fin cfg1.N, (cfg1.win 6).flush t = true ∧ i ∈ ((cfg1.win 6).blk t).view.set := by
  have h0 : (i 0 : ℕ) < 8192 := (i 0).isLt
  have hN : cfg1.N = 128 := N_1
  exact ⟨⟨8 * ((i 0).val / 512) + 7, by rw [hN]; omega⟩, (flush1_6 _).mpr (by show (8 * ((i 0).val / 512) + 7) % 8 = 7; omega),
    mem_blk6 i _ (by show (8 * ((i 0).val / 512) + 7) / 8 = (i 0).val / 512; omega)⟩

theorem cover7 (i : S8192x1.Idx) : ∃ t : Fin cfg1.N, (cfg1.win 7).flush t = true ∧ i ∈ ((cfg1.win 7).blk t).view.set := by
  have h0 : (i 0 : ℕ) < 8192 := (i 0).isLt
  have hN : cfg1.N = 128 := N_1
  exact ⟨⟨8 * ((i 0).val / 512) + 7, by rw [hN]; omega⟩, (flush1_7 _).mpr (by show (8 * ((i 0).val / 512) + 7) % 8 = 7; omega),
    mem_blk7 i _ (by show (8 * ((i 0).val / 512) + 7) / 8 = (i 0).val / 512; omega)⟩

/-- The second launch leaves, row by row, the largest distance to a sample of the row's own identity … -/
theorem far_array (c : Dev nD) :
    (dat1 (F := Ideal) V c).arrAt 6 cfg1.N = farK (V c main_v0) (V c main_v1) (V c main_v13) (V c main_v2) (V c main_v12) (V c main_v6) :=
  (dat1 (F := Ideal) V c).arrAt_eq_of_cover 6 (farK (V c main_v0) (V c main_v1) (V c main_v13) (V c main_v2) (V c main_v12) (V c main_v6)) (flushed6 V c) cover6

/-- … and the smallest distance to a sample of another identity. -/
theorem near_array (c : Dev nD) :
    (dat1 (F := Ideal) V c).arrAt 7 cfg1.N = nearK (V c main_v0) (V c main_v1) (V c main_v13) (V c main_v2) (V c main_v12) (V c main_v6) :=
  (dat1 (F := Ideal) V c).arrAt_eq_of_cover 7 (nearK (V c main_v0) (V c main_v1) (V c main_v13) (V c main_v2) (V c main_v12) (V c main_v6)) (flushed7 V c) cover7

end Cert.KernelIdeal.Region1

end
-- ==== Proof.KernelHost.lean ====
/-
  The host stretches of the kernel program, as functions of the contents at each stretch's start: the reshapes of the
  identities to a column and a row, the row of the samples' squared norms, the centers and the column of their squared
  norms, and the two means that are the program's results.
-/
import proofs.«104321_j75900662055339_1_alg».proof.Proof.Gen.KernelIdeal.Launch
import Idealize.ShloMosaic.Lib.StableHlo.Run
import proofs.«104321_j75900662055339_1_alg».proof.Proof.Spec
import proofs.«104321_j75900662055339_1_alg».proof.Proof.LibKeepdims

noncomputable section

open scoped BigOperators

namespace Cert.KernelIdeal.HostValue

open Cert.KernelIdeal Cert.KernelIdeal.Gen Idealize.ShloMosaic Idealize.ShloMosaic.StableHlo Idealize.ShloMosaic.ValueIdx

variable (U : Valuation τ sig (Elt Ideal))

/-- The contents' elements are extended reals; the arithmetic below is theirs. -/
local notation:70 a:70 " ⋆ " b:71 => @HMul.hMul EReal EReal EReal instHMul a b
local notation:65 a:65 " ⊖ " b:66 => @HSub.hSub EReal EReal EReal instHSub a b

/-! ## The layout steps at coordinates -/

variable {α : Type}

/-- A vector of 8192 cast to a row [1, 8192] reads, at (p, q), the vector at q. -/
private theorem shapeCast_row_apply (x : S8192.Idx → α) (h : S8192.ShapeCasts S1x8192) (p : Fin 1) (q : Fin 8192) :
    shapeCast S1x8192 x h (ix2 p q) = x (ix1 q) :=
  shapeCast_apply x h _ _ (by
    have hp : p.val = 0 := by omega
    rw [Shape.rowMajor_val_one, Shape.rowMajor_val_two]
    show q.val = p.val * 8192 + q.val
    rw [hp]; omega)

/-- A column [8192, 1] cast to a row [1, 8192] reads, at (p, q), the column at (q, 0). -/
private theorem shapeCast_col_row_apply (x : S8192x1.Idx → α) (h : S8192x1.ShapeCasts S1x8192) (p : Fin 1) (q : Fin 8192) :
    shapeCast S1x8192 x h (ix2 p q) = x (ix2 q (0 : Fin 1)) :=
  shapeCast_apply x h _ _ (by
    have hp : p.val = 0 := by omega
    rw [Shape.rowMajor_val_two, Shape.rowMajor_val_two]
    show q.val * 1 + 0 = p.val * 8192 + q.val
    rw [hp]; omega)

/-- A vector of 8192 broadcast to a column [8192, 1] reads, at (p, u), the vector at p. -/
private theorem bcast_col_apply (x : S8192.Idx → α) (h : S8192.BroadcastsInDim S8192x1 (![0] : Fin 1 → Fin S8192x1.rank))
    (p : Fin 8192) (u : Fin 1) : broadcastInDim S8192x1 ![0] h x (ix2 p u) = x (ix1 p) :=
  broadcastInDim_apply _ h x _ _ (fun a => match a with
    | ⟨0, _⟩ => by show p.val = if (8192 : Nat) = 1 then 0 else p.val; rw [if_neg (by decide)])

/-- A column [8192, 1] broadcast along the rows of [8192, 128] reads, at y, the column at (y 0, 0). -/
private theorem bcast_cols_apply (x : S8192x1.Idx → α)
    (h : S8192x1.BroadcastsInDim S8192x128 (![0, 1] : Fin 2 → Fin S8192x128.rank)) (y : S8192x128.Idx) :
    broadcastInDim S8192x128 ![0, 1] h x y = x (ix2 (y 0) (0 : Fin 1)) :=
  broadcastInDim_apply _ h x y _ (fun a => match a with
    | ⟨0, _⟩ => by show (y 0).val = if (8192 : Nat) = 1 then 0 else (y 0).val; rw [if_neg (by decide)]
    | ⟨1, _⟩ => by show 0 = if (1 : Nat) = 1 then 0 else (y 1).val; rw [if_pos rfl])

/-- The sum of a [8192, 128] matrix over its second axis, from the initial value 0, at row i. -/
private theorem reduceAdd_row_apply (X : (⟨S8192x128, .f32⟩ : BufTy).Contents (Elt Ideal)) (i : Fin 8192) :
    Host.reduceAdd (F := Ideal) X (constant S_ .f32 0x00000000#32) reducesTo_S8192x128_S8192_d1 h_S_ (ix1 i)
      = ∑ d : Fin 128, X (ix2 i d) := by
  have h : S8192x128.Reduces [1] S8192 := by decide
  simp only [Host.reduceAdd, Ideal.hostReduceAdd_def]
  rw [Ideal.hostReduceAdd_single reducesTo_S8192x128_S8192_d1 h]
  show Ideal.ofBits .f32 0x00000000#32 + _ = _
  rw [Ideal.ofBits_zero_f32, zero_add]
  exact Finset.sum_congr rfl fun k _ => congrArg X (ValueKeepdims.lift_axis1_ix2 h i k)

/-! ## The first stretch -/

/-- The identities as a column. -/
theorem head_v0 : after (hostOps0 (F := Ideal)) U (Proc.devRef .tc main_v0)
    = fun y => U (Proc.devRef .tc main_arg1) (ix1 (y 0)) := by
  after_results
  funext y
  obtain ⟨p, q, rfl⟩ : ∃ (p : Fin 8192) (q : Fin 1), y = ix2 p q := ⟨y 0, y 1, eq_ix2 y⟩
  exact ValueKeepdims.shapeCast_a_a1_apply _ shapeCasts_S8192_S8192x1 p q

/-- The identities as a row. -/
theorem head_v1 : after (hostOps0 (F := Ideal)) U (Proc.devRef .tc main_v1)
    = fun y => U (Proc.devRef .tc main_arg1) (ix1 (y 1)) := by
  after_results
  funext y
  obtain ⟨p, q, rfl⟩ : ∃ (p : Fin 1) (q : Fin 8192), y = ix2 p q := ⟨y 0, y 1, eq_ix2 y⟩
  exact shapeCast_row_apply _ shapeCasts_S8192_S1x8192 p q

/-- The samples, narrowed: on the extended reals the narrowing is the identity. -/
theorem head_v2 : after (hostOps0 (F := Ideal)) U (Proc.devRef .tc main_v2) = U (Proc.devRef .tc main_arg0) := by
  after_results
  rfl

/-- The samples' squared norms as a row. -/
theorem head_v6 : after (hostOps0 (F := Ideal)) U (Proc.devRef .tc main_v6)
    = fun y : S1x8192.Idx => ∑ d : Fin 128,
        U (Proc.devRef .tc main_arg0) (ix2 (y 1) d) ⋆ U (Proc.devRef .tc main_arg0) (ix2 (y 1) d) := by
  after_results
  funext y
  obtain ⟨p, q, rfl⟩ : ∃ (p : Fin 1) (q : Fin 8192), y = ix2 p q := ⟨y 0, y 1, eq_ix2 y⟩
  show shapeCast S1x8192 _ shapeCasts_S8192x1_S1x8192 (ix2 p q) = _
  rw [shapeCast_col_row_apply, bcast_col_apply, reduceAdd_row_apply]
  rfl

/-! ## The second stretch -/

theorem mid_v0 : after (hostOps1 (F := Ideal)) U (Proc.devRef .tc main_v0) = U (Proc.devRef .tc main_v0) := by
  after_results
theorem mid_v1 : after (hostOps1 (F := Ideal)) U (Proc.devRef .tc main_v1) = U (Proc.devRef .tc main_v1) := by
  after_results
theorem mid_v2 : after (hostOps1 (F := Ideal)) U (Proc.devRef .tc main_v2) = U (Proc.devRef .tc main_v2) := by
  after_results
theorem mid_v6 : after (hostOps1 (F := Ideal)) U (Proc.devRef .tc main_v6) = U (Proc.devRef .tc main_v6) := by
  after_results

/-- The centers: the masked sums divided by the counts. -/
theorem mid_v13 : after (hostOps1 (F := Ideal)) U (Proc.devRef .tc main_v13)
    = fun y : S8192x128.Idx => Ideal.div (U (Proc.devRef .tc main_v7_0) y) (U (Proc.devRef .tc main_v7_1) (ix2 (y 0) (0 : Fin 1))) := by
  after_results
  funext y
  show Ideal.div (U (Proc.devRef .tc main_v7_0) y) (broadcastInDim S8192x128 ![0, 1] bcast_S8192x1_S8192x128_0_1 (U (Proc.devRef .tc main_v7_1)) y) = _
  rw [bcast_cols_apply]

/-- The centers' squared norms as a column. -/
theorem mid_v12 : after (hostOps1 (F := Ideal)) U (Proc.devRef .tc main_v12)
    = fun y : S8192x1.Idx => ∑ d : Fin 128,
        Ideal.div (U (Proc.devRef .tc main_v7_0) (ix2 (y 0) d)) (U (Proc.devRef .tc main_v7_1) (ix2 (y 0) (0 : Fin 1)))
          ⋆ Ideal.div (U (Proc.devRef .tc main_v7_0) (ix2 (y 0) d)) (U (Proc.devRef .tc main_v7_1) (ix2 (y 0) (0 : Fin 1))) := by
  after_results
  funext y
  obtain ⟨p, q, rfl⟩ : ∃ (p : Fin 8192) (q : Fin 1), y = ix2 p q := ⟨y 0, y 1, eq_ix2 y⟩
  rw [bcast_col_apply, reduceAdd_row_apply]
  refine Finset.sum_congr rfl fun d _ => ?_
  show Ideal.div (U (Proc.devRef .tc main_v7_0) (ix2 p d)) (broadcastInDim S8192x128 ![0, 1] bcast_S8192x1_S8192x128_0_1 (U (Proc.devRef .tc main_v7_1)) (ix2 p d))
      * Ideal.div (U (Proc.devRef .tc main_v7_0) (ix2 p d)) (broadcastInDim S8192x128 ![0, 1] bcast_S8192x1_S8192x128_0_1 (U (Proc.devRef .tc main_v7_1)) (ix2 p d)) = _
  rw [bcast_cols_apply]

/-! ## The last three stretches -/

/-- A scalar broadcast to a column reads the scalar everywhere. -/
private theorem bcast_scalar_col_apply (c : S_.Idx → α) (h : S_.BroadcastsInDim S8192x1 (![] : Fin 0 → Fin S8192x1.rank))
    (y : S8192x1.Idx) : broadcastInDim S8192x1 ![] h c y = c ix0 :=
  broadcastInDim_apply _ h c y ix0 (fun a => a.elim0)

/-- A sum over the indices of a column is the sum over its rows. -/
private theorem sum_col (f : S8192x1.Idx → EReal) : ∑ j : S8192x1.Idx, f j = ∑ i : Fin 8192, f (ix2 i (0 : Fin 1)) := by
  rw [sum_idx2]
  exact Finset.sum_congr rfl fun i _ => Fin.sum_univ_one _

/-- The sum of a column into a scalar, from the initial value 0. -/
private theorem reduceAdd_col_apply (X : (⟨S8192x1, .f32⟩ : BufTy).Contents (Elt Ideal)) (j : S_.Idx) :
    Host.reduceAdd (F := Ideal) X (constant S_ .f32 0x00000000#32) reducesTo_S8192x1_S_d0_1 h_S_ j
      = ∑ i : Fin 8192, X (ix2 i (0 : Fin 1)) := by
  simp only [Host.reduceAdd, Ideal.hostReduceAdd_def]
  rw [Ideal.hostReduceAdd_total reducesTo_S8192x1_S_d0_1 (fun b => b.elim0)]
  show Ideal.ofBits .f32 0x00000000#32 + _ = _
  rw [Ideal.ofBits_zero_f32, zero_add, sum_col]

/-- The first result: the mean over the samples of the hinge of far − near + margin. -/
theorem tail_v20 : after (hostOps2_2 (F := Ideal)) (after (hostOps2_1 (F := Ideal)) (after (hostOps2 (F := Ideal)) U)) (Proc.devRef .tc main_v20)
    = fun _ => Ideal.div (∑ i : Fin 8192,
        max ((U (Proc.devRef .tc main_v14_0) (ix2 i (0 : Fin 1)) ⊖ U (Proc.devRef .tc main_v14_1) (ix2 i (0 : Fin 1))) + Cert.Mine.margin) 0)
        Cert.Mine.count := by
  after_results
  funext j
  show Ideal.div (Host.reduceAdd (F := Ideal) _ (constant S_ .f32 0x00000000#32) reducesTo_S8192x1_S_d0_1 h_S_ j) Cert.Mine.count = _
  rw [reduceAdd_col_apply]
  refine congrArg (fun s => Ideal.div s Cert.Mine.count) (Finset.sum_congr rfl fun i _ => ?_)
  show max ((_ ⊖ _) + broadcastInDim S8192x1 ![] bcast_S_S8192x1 (constant (F := Ideal) S_ .f32 0x3E99999A#32) (ix2 i (0 : Fin 1)))
      (broadcastInDim S8192x1 ![] bcast_S_S8192x1 (constant (F := Ideal) S_ .f32 0x00000000#32) (ix2 i (0 : Fin 1))) = _
  rw [bcast_scalar_col_apply, bcast_scalar_col_apply]
  show max (_ + Cert.Mine.margin) (Ideal.ofBits .f32 0x00000000#32) = _
  rw [Ideal.ofBits_zero_f32]

/-- The second result: the fraction of the samples whose near exceeds their far. -/
theorem tail_v24 : after (hostOps2_2 (F := Ideal)) (after (hostOps2_1 (F := Ideal)) (after (hostOps2 (F := Ideal)) U)) (Proc.devRef .tc main_v24)
    = fun _ => Ideal.div (∑ i : Fin 8192,
        FloatOps.uitofp (F := Ideal) .f32 (FloatOps.cmpf (F := Ideal) (φ := .f32) .ogt
          (U (Proc.devRef .tc main_v14_1) (ix2 i (0 : Fin 1))) (U (Proc.devRef .tc main_v14_0) (ix2 i (0 : Fin 1)))))
        Cert.Mine.count := by
  after_results
  funext j
  show Ideal.div (Host.reduceAdd (F := Ideal) _ (constant S_ .f32 0x00000000#32) reducesTo_S8192x1_S_d0_1 h_S_ j) Cert.Mine.count = _
  rw [reduceAdd_col_apply]
  rfl

end Cert.KernelIdeal.HostValue

end
-- ==== Proof.SpecJoin.lean ====
/-
  The launches' results, fed the reshaped identities, the samples, the centers and the two squared norms, are the
  specification's own quantities: the mask, the counts, the masked sums, the centers, the distances, and the farthest
  kin and nearest stranger of every sample; hence the two means are the specification's two numbers.
-/
import proofs.«104321_j75900662055339_1_alg».proof.Proof.Spec

noncomputable section

open scoped BigOperators
open Idealize.ShloMosaic Idealize.ShloMosaic.ValueIdx

namespace Cert.Mine

variable (x : SX.Idx → EReal) (t : ST.Idx → BitVec 32)

/-- The identities as a column and as a row, the samples' squared norms as a row. -/
abbrev tcolOf : SC.Idx → BitVec 32 := fun y => t (ix1 (y 0))
abbrev trowOf : SR.Idx → BitVec 32 := fun y => t (ix1 (y 1))
abbrev x2rowOf : SR.Idx → EReal := fun y => ∑ d : Fin 128, x (ix2 (y 1) d) * x (ix2 (y 1) d)
/-- The centers from the first launch's two results, and their squared norms as a column. -/
abbrev cbOf : SX.Idx → EReal := fun y =>
  Ideal.div (cnumK (tcolOf t) (trowOf t) x y) (cntK (tcolOf t) (trowOf t) (ix2 (y 0) (0 : Fin 1)))
abbrev c2colOf : SC.Idx → EReal := fun y => ∑ d : Fin 128,
  Ideal.div (cnumK (tcolOf t) (trowOf t) x (ix2 (y 0) d)) (cntK (tcolOf t) (trowOf t) (ix2 (y 0) (0 : Fin 1)))
    * Ideal.div (cnumK (tcolOf t) (trowOf t) x (ix2 (y 0) d)) (cntK (tcolOf t) (trowOf t) (ix2 (y 0) (0 : Fin 1)))

theorem bitK_join (i j : Fin 8192) : bitK (tcolOf t) (trowOf t) i j = bit t i j := rfl
theorem indK_join (i j : Fin 8192) : indK (tcolOf t) (trowOf t) i j = ind t i j := rfl
theorem cntK_join (y : SC.Idx) : cntK (tcolOf t) (trowOf t) y = cnt t (y 0) := rfl
theorem cnumK_join (y : SX.Idx) : cnumK (tcolOf t) (trowOf t) x y = cnum x t (y 0) (y 1) := rfl
theorem cb_join (y : SX.Idx) : cbOf x t y = ctr x t (y 0) (y 1) := rfl
theorem c2col_join (y : SC.Idx) : c2colOf x t y = c2 x t (y 0) := rfl
theorem x2row_join (y : SR.Idx) : x2rowOf x y = x2 x (y 1) := rfl
theorem distK_join (i j : Fin 8192) :
    distK (cbOf x t) x (c2colOf x t) (x2rowOf x) i j = dist x t i j := rfl

/-- The second launch's first result, at row i, is the farthest sample of center i's own identity. -/
theorem farK_join (i : Fin 8192) :
    farK (tcolOf t) (trowOf t) (cbOf x t) x (c2colOf x t) (x2rowOf x) (ix2 i (0 : Fin 1)) = far x t i :=
  congrArg (fun f => Finset.fold max negInf f (Finset.univ : Finset (Fin 8192)))
    (funext fun j => congrArg₂ (fun b d => Scalar.select b d negInf) (bitK_join t i j) (distK_join x t i j))

/-- … and its second, the nearest sample of another identity. -/
theorem nearK_join (i : Fin 8192) :
    nearK (tcolOf t) (trowOf t) (cbOf x t) x (c2colOf x t) (x2rowOf x) (ix2 i (0 : Fin 1)) = near x t i :=
  congrArg (fun f => Finset.fold min posInf f (Finset.univ : Finset (Fin 8192)))
    (funext fun j => congrArg₂ (fun b d => Scalar.select b posInf d) (bitK_join t i j) (distK_join x t i j))

/-- The mean hinge over the second launch's results is the specification's first number. -/
theorem loss_join :
    Ideal.div (∑ i : Fin 8192,
      max (farK (tcolOf t) (trowOf t) (cbOf x t) x (c2colOf x t) (x2rowOf x) (ix2 i (0 : Fin 1))
        - nearK (tcolOf t) (trowOf t) (cbOf x t) x (c2colOf x t) (x2rowOf x) (ix2 i (0 : Fin 1)) + margin) 0) count
      = loss x t := by
  unfold loss hinge
  exact congrArg (fun s => Ideal.div s count) (Finset.sum_congr rfl fun i _ => by rw [farK_join, nearK_join])

/-- The fraction won over the second launch's results is the specification's second number. -/
theorem prec_join :
    Ideal.div (∑ i : Fin 8192, FloatOps.uitofp (F := Ideal) .f32 (FloatOps.cmpf (F := Ideal) (φ := .f32) .ogt
        (nearK (tcolOf t) (trowOf t) (cbOf x t) x (c2colOf x t) (x2rowOf x) (ix2 i (0 : Fin 1)))
        (farK (tcolOf t) (trowOf t) (cbOf x t) x (c2colOf x t) (x2rowOf x) (ix2 i (0 : Fin 1))))) count
      = prec x t := by
  unfold prec won
  exact congrArg (fun s => Ideal.div s count) (Finset.sum_congr rfl fun i _ => by rw [farK_join, nearK_join])

end Cert.Mine

end
-- ==== Proof.KernelChain.lean ====
/-
  From the launch memory to the two results. The program is seven segments: host operations, the first launch, host
  operations, the second launch, three stretches of host operations. Each boundary's contents are read from the one
  before: a host stretch by its value at its operands, a launch's output arrays by the launch's result (a hypothesis
  here), every other buffer unchanged. The two results are then the specification's two numbers at the arguments.
-/
import proofs.«104321_j75900662055339_1_alg».proof.Proof.Gen.KernelIdeal.Frame
import proofs.«104321_j75900662055339_1_alg».proof.Proof.KernelHost
import proofs.«104321_j75900662055339_1_alg».proof.Proof.SpecJoin
import Idealize.ShloMosaic.Lib.Pipeline.Value

set_option maxRecDepth 16384

noncomputable section

open scoped BigOperators

namespace Cert.KernelIdeal.Chain

open Cert.KernelIdeal Cert.KernelIdeal.Gen Cert.KernelIdeal.HostValue
open Idealize.ShloMosaic Idealize.ShloMosaic.TcCoe Idealize.ShloMosaic.StableHlo Idealize.ShloMosaic.ValueIdx
open Idealize.SL.Sem
open Idealize.ShloMosaic.Pipeline (Dat Cfg Window)

variable (m : (ℓ : Loc nD τ sig) → Buf (Elt Ideal) ℓ) (ρ : Dev nD → PrngReg)

variable (c : Dev nD)

/-! ## At the first launch's entry -/

theorem V1_v0 : V1 (F := Ideal) m ρ c main_v0 = Cert.Mine.tcolOf (m ((c : Thread nD τ).loc main_arg1)) :=
  head_v0 (W0 m ρ c)
theorem V1_v1 : V1 (F := Ideal) m ρ c main_v1 = Cert.Mine.trowOf (m ((c : Thread nD τ).loc main_arg1)) :=
  head_v1 (W0 m ρ c)
theorem V1_v2 : V1 (F := Ideal) m ρ c main_v2 = m ((c : Thread nD τ).loc main_arg0) :=
  head_v2 (W0 m ρ c)
theorem V1_v6 : V1 (F := Ideal) m ρ c main_v6 = Cert.Mine.x2rowOf (m ((c : Thread nD τ).loc main_arg0)) :=
  head_v6 (W0 m ρ c)

/-! ## At the first launch's exit -/

theorem W2_v0 : W2 (F := Ideal) m ρ c (Proc.devRef .tc main_v0) = Cert.Mine.tcolOf (m ((c : Thread nD τ).loc main_arg1)) :=
  (W2_arr m ρ c 0).trans (((dat0 (V1 m ρ) c).arrAt_in 0 rfl _).trans ((A_eq0 _ c 0).trans (V1_v0 m ρ c)))
theorem W2_v1 : W2 (F := Ideal) m ρ c (Proc.devRef .tc main_v1) = Cert.Mine.trowOf (m ((c : Thread nD τ).loc main_arg1)) :=
  (W2_arr m ρ c 1).trans (((dat0 (V1 m ρ) c).arrAt_in 1 rfl _).trans ((A_eq0 _ c 1).trans (V1_v1 m ρ c)))
theorem W2_v2 : W2 (F := Ideal) m ρ c (Proc.devRef .tc main_v2) = m ((c : Thread nD τ).loc main_arg0) :=
  (W2_arr m ρ c 2).trans (((dat0 (V1 m ρ) c).arrAt_in 2 rfl _).trans ((A_eq0 _ c 2).trans (V1_v2 m ρ c)))
theorem W2_v6 : W2 (F := Ideal) m ρ c (Proc.devRef .tc main_v6) = Cert.Mine.x2rowOf (m ((c : Thread nD τ).loc main_arg0)) :=
  (W2_of_ne m ρ c main_v6 (by decide)).trans (V1_v6 m ρ c)

/-! ### The launches' results, as the region theorems state them -/

variable
  (h3 : ∀ (V : (c : Dev nD) → (b : Ref sig .tc) → Buf (Elt Ideal) ((c : Thread nD τ).loc b)) (c : Dev nD),
    (Gen.dat0 (F := Ideal) V c).arrAt 3 cfg0.N = Cert.Mine.cnumK (V c main_v0) (V c main_v1) (V c main_v2))
  (h4 : ∀ (V : (c : Dev nD) → (b : Ref sig .tc) → Buf (Elt Ideal) ((c : Thread nD τ).loc b)) (c : Dev nD),
    (Gen.dat0 (F := Ideal) V c).arrAt 4 cfg0.N = Cert.Mine.cntK (V c main_v0) (V c main_v1))
  (h6 : ∀ (V : (c : Dev nD) → (b : Ref sig .tc) → Buf (Elt Ideal) ((c : Thread nD τ).loc b)) (c : Dev nD),
    (Gen.dat1 (F := Ideal) V c).arrAt 6 cfg1.N
      = Cert.Mine.farK (V c main_v0) (V c main_v1) (V c main_v13) (V c main_v2) (V c main_v12) (V c main_v6))
  (h7 : ∀ (V : (c : Dev nD) → (b : Ref sig .tc) → Buf (Elt Ideal) ((c : Thread nD τ).loc b)) (c : Dev nD),
    (Gen.dat1 (F := Ideal) V c).arrAt 7 cfg1.N
      = Cert.Mine.nearK (V c main_v0) (V c main_v1) (V c main_v13) (V c main_v2) (V c main_v12) (V c main_v6))

include h3 in
theorem W2_v7_0 : W2 (F := Ideal) m ρ c (Proc.devRef .tc main_v7_0)
    = Cert.Mine.cnumK (Cert.Mine.tcolOf (m ((c : Thread nD τ).loc main_arg1))) (Cert.Mine.trowOf (m ((c : Thread nD τ).loc main_arg1)))
        (m ((c : Thread nD τ).loc main_arg0)) :=
  ((W2_arr m ρ c 3).trans (h3 (V1 m ρ) c)).trans (by rw [V1_v0, V1_v1, V1_v2])

include h4 in
theorem W2_v7_1 : W2 (F := Ideal) m ρ c (Proc.devRef .tc main_v7_1)
    = Cert.Mine.cntK (Cert.Mine.tcolOf (m ((c : Thread nD τ).loc main_arg1))) (Cert.Mine.trowOf (m ((c : Thread nD τ).loc main_arg1))) :=
  ((W2_arr m ρ c 4).trans (h4 (V1 m ρ) c)).trans (by rw [V1_v0, V1_v1])

/-! ## At the second launch's entry -/

theorem V3_v0 : V3 (F := Ideal) m ρ c main_v0 = Cert.Mine.tcolOf (m ((c : Thread nD τ).loc main_arg1)) :=
  (mid_v0 (W2 m ρ c)).trans (W2_v0 m ρ c)
theorem V3_v1 : V3 (F := Ideal) m ρ c main_v1 = Cert.Mine.trowOf (m ((c : Thread nD τ).loc main_arg1)) :=
  (mid_v1 (W2 m ρ c)).trans (W2_v1 m ρ c)
theorem V3_v2 : V3 (F := Ideal) m ρ c main_v2 = m ((c : Thread nD τ).loc main_arg0) :=
  (mid_v2 (W2 m ρ c)).trans (W2_v2 m ρ c)
theorem V3_v6 : V3 (F := Ideal) m ρ c main_v6 = Cert.Mine.x2rowOf (m ((c : Thread nD τ).loc main_arg0)) :=
  (mid_v6 (W2 m ρ c)).trans (W2_v6 m ρ c)

include h3 h4 in
theorem V3_v13 : V3 (F := Ideal) m ρ c main_v13
    = Cert.Mine.cbOf (m ((c : Thread nD τ).loc main_arg0)) (m ((c : Thread nD τ).loc main_arg1)) := by
  refine (mid_v13 (W2 m ρ c)).trans ?_
  rw [W2_v7_0 m ρ c h3, W2_v7_1 m ρ c h4]

include h3 h4 in
theorem V3_v12 : V3 (F := Ideal) m ρ c main_v12
    = Cert.Mine.c2colOf (m ((c : Thread nD τ).loc main_arg0)) (m ((c : Thread nD τ).loc main_arg1)) := by
  refine (mid_v12 (W2 m ρ c)).trans ?_
  rw [W2_v7_0 m ρ c h3, W2_v7_1 m ρ c h4]

/-! ## At the second launch's exit -/

include h3 h4 h6 in
theorem W4_v14_0 : W4 (F := Ideal) m ρ c (Proc.devRef .tc main_v14_0)
    = Cert.Mine.farK (Cert.Mine.tcolOf (m ((c : Thread nD τ).loc main_arg1))) (Cert.Mine.trowOf (m ((c : Thread nD τ).loc main_arg1)))
        (Cert.Mine.cbOf (m ((c : Thread nD τ).loc main_arg0)) (m ((c : Thread nD τ).loc main_arg1)))
        (m ((c : Thread nD τ).loc main_arg0))
        (Cert.Mine.c2colOf (m ((c : Thread nD τ).loc main_arg0)) (m ((c : Thread nD τ).loc main_arg1)))
        (Cert.Mine.x2rowOf (m ((c : Thread nD τ).loc main_arg0))) :=
  ((W4_arr m ρ c 6).trans (h6 (V3 m ρ) c)).trans (by
    rw [V3_v0, V3_v1, V3_v13 m ρ c h3 h4, V3_v2, V3_v12 m ρ c h3 h4, V3_v6])

include h3 h4 h7 in
theorem W4_v14_1 : W4 (F := Ideal) m ρ c (Proc.devRef .tc main_v14_1)
    = Cert.Mine.nearK (Cert.Mine.tcolOf (m ((c : Thread nD τ).loc main_arg1))) (Cert.Mine.trowOf (m ((c : Thread nD τ).loc main_arg1)))
        (Cert.Mine.cbOf (m ((c : Thread nD τ).loc main_arg0)) (m ((c : Thread nD τ).loc main_arg1)))
        (m ((c : Thread nD τ).loc main_arg0))
        (Cert.Mine.c2colOf (m ((c : Thread nD τ).loc main_arg0)) (m ((c : Thread nD τ).loc main_arg1)))
        (Cert.Mine.x2rowOf (m ((c : Thread nD τ).loc main_arg0))) :=
  ((W4_arr m ρ c 7).trans (h7 (V3 m ρ) c)).trans (by
    rw [V3_v0, V3_v1, V3_v13 m ρ c h3 h4, V3_v2, V3_v12 m ρ c h3 h4, V3_v6])

/-! ## The two results -/

include h3 h4 h6 h7 in
/-- At the last boundary the two result buffers hold the mean hinge and the fraction won of the arguments. -/
theorem results :
    Gen.W7 (F := Ideal) m ρ c (Proc.devRef .tc main_v20)
        = (fun _ => Cert.Mine.loss (m ((c : Thread nD τ).loc main_arg0)) (m ((c : Thread nD τ).loc main_arg1)))
      ∧ Gen.W7 (F := Ideal) m ρ c (Proc.devRef .tc main_v24)
        = (fun _ => Cert.Mine.prec (m ((c : Thread nD τ).loc main_arg0)) (m ((c : Thread nD τ).loc main_arg1))) := by
  constructor
  · refine (tail_v20 (W4 m ρ c)).trans ?_
    rw [W4_v14_0 m ρ c h3 h4 h6, W4_v14_1 m ρ c h3 h4 h7]
    exact funext fun _ => Cert.Mine.loss_join _ _
  · refine (tail_v24 (W4 m ρ c)).trans ?_
    rw [W4_v14_0 m ρ c h3 h4 h6, W4_v14_1 m ρ c h3 h4 h7]
    exact funext fun _ => Cert.Mine.prec_join _ _

end Cert.KernelIdeal.Chain

end
-- ==== Proof.lean ====
/-
  The certificate's claim: the tiled kernel and the plain reference compute the same hard-mined center loss.

  Both programs take `n = 8192` samples `x : [8192, 128]` with identities `t : [8192]` and return the mean hinge
  `mean_i max (far i − near i + margin) 0` and the fraction of samples with `near i > far i`, where `far i` is the
  largest squared distance from the center of sample `i`'s identity to a sample of that identity and `near i` the
  smallest to a sample of another (the module Spec states these once, over coordinates).

  The reference forms the full 8192 × 8192 mask and distance matrix. The kernel never does: a first launch accumulates
  the per-identity sums and counts over eight column blocks of 1024 samples, host operations divide them into centers,
  and a second launch folds the masked maxima and minima over the same eight column blocks. On the extended reals a sum
  over 8192 columns is the sum of the eight blocks' sums, and a maximum from −∞ (a minimum from +∞) over 8192 columns is
  the maximum (minimum) of the eight blocks' — commutativity and associativity only, so the inputs' finiteness is never
  used. Everything else is the same operation on the same values on both sides: the same literals, the same grouping
  `(‖c‖² + ‖x‖²) − 2·⟨c, x⟩`, the same division and comparison.

  The three programs' runs (termination, no fault, arguments unchanged) are the generated frames; nothing was
  rewritten by the idealization, so the kernel is its own idealization.
-/
import proofs.«104321_j75900662055339_1_alg».proof.Defs
import proofs.«104321_j75900662055339_1_alg».proof.Proof.Gen.Kernel
import proofs.«104321_j75900662055339_1_alg».proof.Proof.Gen.Kernel.Skeleton
import proofs.«104321_j75900662055339_1_alg».proof.Proof.Gen.Kernel.Launch
import proofs.«104321_j75900662055339_1_alg».proof.Proof.Gen.Kernel.Points
import proofs.«104321_j75900662055339_1_alg».proof.Proof.Gen.Kernel.Frame
import proofs.«104321_j75900662055339_1_alg».proof.Proof.Gen.KernelIdeal
import proofs.«104321_j75900662055339_1_alg».proof.Proof.Gen.KernelIdeal.Skeleton
import proofs.«104321_j75900662055339_1_alg».proof.Proof.Gen.KernelIdeal.Launch
import proofs.«104321_j75900662055339_1_alg».proof.Proof.Gen.KernelIdeal.Points
import proofs.«104321_j75900662055339_1_alg».proof.Proof.Gen.KernelIdeal.Frame
import proofs.«104321_j75900662055339_1_alg».proof.Proof.Gen.ReferenceIdeal
import proofs.«104321_j75900662055339_1_alg».proof.Proof.Gen.ReferenceIdeal.Run
import proofs.«104321_j75900662055339_1_alg».proof.Proof.Gen.ReferenceIdeal.Read
import proofs.«104321_j75900662055339_1_alg».proof.Proof.Gen.Pre_finite_inputs
import proofs.«104321_j75900662055339_1_alg».proof.Proof.Spec
import proofs.«104321_j75900662055339_1_alg».proof.Proof.RefSide
import proofs.«104321_j75900662055339_1_alg».proof.Proof.KernelRun
import proofs.«104321_j75900662055339_1_alg».proof.Proof.Region0Final
import proofs.«104321_j75900662055339_1_alg».proof.Proof.Region1Final
import proofs.«104321_j75900662055339_1_alg».proof.Proof.KernelChain
import Idealize.ShloMosaic.Adequacy
import Idealize.ShloMosaic.Init

noncomputable section

namespace Cert.Proof

open Idealize.ShloMosaic Idealize.ShloMosaic.TcCoe Idealize.SL.Sem

/-- The three runs: each program terminates without a fault and leaves its arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- On the extended reals both programs end with the mean hinge and the fraction won of the same samples. -/
theorem algebraic : Cert.algebraic_KernelIdeal_ReferenceIdeal := by
  intro m ρ m' ρ' _ hagree
  refine ⟨fun c _ => Cert.Mine.loss (m ((c : Thread Cert.KernelIdeal.nD Cert.KernelIdeal.τ).loc Cert.KernelIdeal.main_arg0))
      (m ((c : Thread Cert.KernelIdeal.nD Cert.KernelIdeal.τ).loc Cert.KernelIdeal.main_arg1)),
    fun c _ => Cert.Mine.prec (m ((c : Thread Cert.KernelIdeal.nD Cert.KernelIdeal.τ).loc Cert.KernelIdeal.main_arg0))
      (m ((c : Thread Cert.KernelIdeal.nD Cert.KernelIdeal.τ).loc Cert.KernelIdeal.main_arg1)), ?_, ?_⟩
  · refine (θ_run Cert.KernelIdeal.defs _ _).mono (fun _ h c => ?_) (Cert.KernelIdeal.RunValue.run_results (F := Ideal) m ρ)
    have hres := Cert.KernelIdeal.Chain.results m ρ c
      (fun V c => Cert.KernelIdeal.Region0.sums_array V c) (fun V c => Cert.KernelIdeal.Region0.counts_array V c)
      (fun V c => Cert.KernelIdeal.Region1.far_array V c) (fun V c => Cert.KernelIdeal.Region1.near_array V c)
    exact ⟨(h c).1.trans hres.1, (h c).2.1.trans hres.2, (h c).2.2.1, (h c).2.2.2⟩
  · refine (θ_run Cert.ReferenceIdeal.defs _ _).mono (fun _ h c => ?_) (Cert.ReferenceIdeal.Value.run (F := Ideal) m' ρ')
    refine ⟨?_, ?_, (h c).2.2.1, (h c).2.2.2⟩
    · rw [(h c).1, Cert.ReferenceIdeal.Read.val_main_v34_eq, Cert.ReferenceIdeal.RefValue.v34_eq, (hagree c).1, (hagree c).2]
      rfl
    · rw [(h c).2.1, Cert.ReferenceIdeal.Read.val_main_v38_eq, Cert.ReferenceIdeal.RefValue.v38_eq, (hagree c).1, (hagree c).2]
      rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
